-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x10 .f32) (main_arg9 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg8
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg9 main_v33

def fn {F : FTy → Type} [FloatOps F] (main_arg0 : FVec F S40000x128 .f32) (main_arg1 : IVec S2x640000 32) (main_arg2 : IVec S40000 32) (main_arg3 : FVec F S3x128x128 .f32) (main_arg4 : FVec F S3x128 .f32) (main_arg5 : FVec F S3x128x128 .f32) (main_arg6 : FVec F S128x128 .f32) (main_arg7 : FVec F S128 .f32) (main_arg8 : FVec F S128x10 .f32) (main_arg9 : FVec F S10 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S256 : Shape := ⟨1, ![256]⟩
abbrev S40000x1 : Shape := ⟨2, ![40000, 1]⟩
abbrev S640000x1 : Shape := ⟨2, ![640000, 1]⟩
abbrev S640000x128 : Shape := ⟨2, ![640000, 128]⟩
abbrev S1x128x128 : Shape := ⟨3, ![1, 128, 128]⟩
abbrev S1x128 : Shape := ⟨2, ![1, 128]⟩
abbrev S5000x128 : Shape := ⟨2, ![5000, 128]⟩
abbrev S5000x1 : Shape := ⟨2, ![5000, 1]⟩
abbrev S256x128 : Shape := ⟨2, ![256, 128]⟩
abbrev S256x1 : Shape := ⟨2, ![256, 1]⟩
abbrev S256x10 : Shape := ⟨2, ![256, 10]⟩
abbrev S1x10 : Shape := ⟨2, ![1, 10]⟩

abbrev nBuf : Space → Nat
  | .hbm => 108
  | .vmem => 39
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .f32⟩
  | .hbm, ⟨15, _⟩ => ⟨S40000, .f32⟩
  | .hbm, ⟨16, _⟩ => ⟨S_, .f32⟩
  | .hbm, ⟨17, _⟩ => ⟨S256, .f32⟩
  | .hbm, ⟨18, _⟩ => ⟨S40000x1, .i32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .i1⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S_, .f32⟩
  | .hbm, ⟨27, _⟩ => ⟨S_, .f32⟩
  | .hbm, ⟨28, _⟩ => ⟨S256, .f32⟩
  | .hbm, ⟨29, _⟩ => ⟨S256, .f32⟩
  | .hbm, ⟨30, _⟩ => ⟨S_, .i32⟩
  | .hbm, ⟨31, _⟩ => ⟨S40000, .i32⟩
  | .hbm, ⟨32, _⟩ => ⟨S40000, .i1⟩
  | .hbm, ⟨33, _⟩ => ⟨S_, .i32⟩
  | .hbm, ⟨34, _⟩ => ⟨S40000, .i32⟩
  | .hbm, ⟨35, _⟩ => ⟨S40000, .i32⟩
  | .hbm, ⟨36, _⟩ => ⟨S40000, .i32⟩
  | .hbm, ⟨37, _⟩ => ⟨S40000x1, .i32⟩
  | .hbm, ⟨38, _⟩ => ⟨S40000, .f32⟩
  | .hbm, ⟨39, _⟩ => ⟨S40000x1, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x128, .f32⟩
  | .hbm, ⟨49, _⟩ => ⟨S_, .f32⟩
  | .hbm, ⟨50, _⟩ => ⟨S40000x128, .f32⟩
  | .hbm, ⟨51, _⟩ => ⟨S640000x1, .i32⟩
  | .hbm, ⟨52, _⟩ => ⟨S40000x128, .f32⟩
  | .hbm, ⟨53, _⟩ => ⟨S1x128x128, .f32⟩
  | .hbm, ⟨54, _⟩ => ⟨S128x128, .f32⟩
  | .hbm, ⟨55, _⟩ => ⟨S1x128, .f32⟩
  | .hbm, ⟨56, _⟩ => ⟨S128, .f32⟩
  | .hbm, ⟨57, _⟩ => ⟨S1x128x128, .f32⟩
  | .hbm, ⟨58, _⟩ => ⟨S128x128, .f32⟩
  | .hbm, ⟨59, _⟩ => ⟨S40000x128, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x128, .f32⟩
  | .hbm, ⟨69, _⟩ => ⟨S_, .f32⟩
  | .hbm, ⟨70, _⟩ => ⟨S40000x128, .f32⟩
  | .hbm, ⟨71, _⟩ => ⟨S640000x1, .i32⟩
  | .hbm, ⟨72, _⟩ => ⟨S40000x128, .f32⟩
  | .hbm, ⟨73, _⟩ => ⟨S1x128x128, .f32⟩
  | .hbm, ⟨74, _⟩ => ⟨S128x128, .f32⟩
  | .hbm, ⟨75, _⟩ => ⟨S1x128, .f32⟩
  | .hbm, ⟨76, _⟩ => ⟨S128, .f32⟩
  | .hbm, ⟨77, _⟩ => ⟨S1x128x128, .f32⟩
  | .hbm, ⟨78, _⟩ => ⟨S128x128, .f32⟩
  | .hbm, ⟨79, _⟩ => ⟨S40000x128, .f32⟩
  | .hbm, ⟨80, _⟩ => ⟨S_, .i32⟩
  | .hbm, ⟨81, _⟩ => ⟨S640000, .i32⟩
  | .hbm, ⟨82, _⟩ => ⟨S640000, .i1⟩
  | .hbm, ⟨83, _⟩ => ⟨S_, .i32⟩
  | .hbm, ⟨84, _⟩ => ⟨S640000, .i32⟩
  | .hbm, ⟨85, _⟩ => ⟨S640000, .i32⟩
  | .hbm, ⟨86, _⟩ => ⟨S640000, .i32⟩
  | .hbm, ⟨87, _⟩ => ⟨S640000x1, .i32⟩
  | .hbm, ⟨88, _⟩ => ⟨S640000x128, .f32⟩
  | .hbm, ⟨89, _⟩ => ⟨S_, .f32⟩
  | .hbm, ⟨90, _⟩ => ⟨S40000x128, .f32⟩
  | .hbm, ⟨91, _⟩ => ⟨S640000x1, .i32⟩
  | .hbm, ⟨92, _⟩ => ⟨S40000x128, .f32⟩
  | .hbm, ⟨93, _⟩ => ⟨S1x128x128, .f32⟩
  | .hbm, ⟨94, _⟩ => ⟨S128x128, .f32⟩
  | .hbm, ⟨95, _⟩ => ⟨S1x128, .f32⟩
  | .hbm, ⟨96, _⟩ => ⟨S128, .f32⟩
  | .hbm, ⟨97, _⟩ => ⟨S1x128x128, .f32⟩
  | .hbm, ⟨98, _⟩ => ⟨S128x128, .f32⟩
  | .hbm, ⟨99, _⟩ => ⟨S40000x128, .f32⟩
  | .hbm, ⟨100, _⟩ => ⟨S_, .f32⟩
  | .hbm, ⟨101, _⟩ => ⟨S256x128, .f32⟩
  | .hbm, ⟨102, _⟩ => ⟨S40000x1, .i32⟩
  | .hbm, ⟨103, _⟩ => ⟨S256x128, .f32⟩
  | .hbm, ⟨104, _⟩ => ⟨S256x1, .f32⟩
  | .hbm, ⟨105, _⟩ => ⟨S256x128, .f32⟩
  | .hbm, ⟨106, _⟩ => ⟨S256x128, .f32⟩
  | .hbm, ⟨107, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x1, .f32⟩
  | .local _ .vmem, ⟨27, _⟩ => ⟨S5000x1, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S256x128, .f32⟩
  | .local _ .vmem, ⟨34, _⟩ => ⟨S128x128, .f32⟩
  | .local _ .vmem, ⟨35, _⟩ => ⟨S128, .f32⟩
  | .local _ .vmem, ⟨36, _⟩ => ⟨S128x10, .f32⟩
  | .local _ .vmem, ⟨37, _⟩ => ⟨S10, .f32⟩
  | .local _ .vmem, ⟨38, _⟩ => ⟨S256x10, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S_S256 : S_.BroadcastsInDim S256 (![] : Fin 0 → Fin S256.rank)
  bcast_S40000_S40000x1_0 : S40000.BroadcastsInDim S40000x1 (![0] : Fin 1 → Fin S40000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  scatter_S256_S40000x1_S40000_n_0_0_1_wf : ScatterDims.WF S256 S40000x1 S40000 [] [0] [0] 1
  gather_S256_S40000x1_S40000_n_0_n_n_0_1_1_wf : GatherDims.WF S256 S40000x1 S40000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  scatter_S256x128_S40000x1_S40000x128_1_0_0_1_wf : ScatterDims.WF S256x128 S40000x1 S40000x128 [1] [0] [0] 1
  dot_S256x128_S128x128_S256x128_1_0_0_1_n_n_wf : DotDims.WF S256x128 S128x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S40000x1.size a
  hwx0_2 : ∀ i : grid0.Coords, EltTy.bits .f32 = 32 ∨ (Rect.block (s := S40000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S40000x128.size a
  hwx0_6 : ∀ i : grid0.Coords, EltTy.bits .f32 = 32 ∨ (Rect.block (s := S40000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S40000x1.size a
  hwx1_2 : ∀ i : grid1.Coords, EltTy.bits .f32 = 32 ∨ (Rect.block (s := S40000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S40000x128.size a
  hwx1_6 : ∀ i : grid1.Coords, EltTy.bits .f32 = 32 ∨ (Rect.block (s := S40000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S40000x128.size a
  hwx2_1 : ∀ i : grid2.Coords, EltTy.bits .f32 = 32 ∨ (Rect.block (s := S40000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S40000x1.size a
  hwx2_2 : ∀ i : grid2.Coords, EltTy.bits .f32 = 32 ∨ (Rect.block (s := S40000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S40000x128.size a
  hwx2_6 : ∀ i : grid2.Coords, EltTy.bits .f32 = 32 ∨ (Rect.block (s := S40000x128) S5000x128.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x10.size a ≤ S128x10.size a
  hwx3_3 : ∀ i : grid3.Coords, EltTy.bits .f32 = 32 ∨ (Rect.block (s := S128x10) S128x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S10.size a ≤ S10.size a
  hwx3_4 : ∀ i : grid3.Coords, EltTy.bits .f32 = 32 ∨ (Rect.block (s := S10) S10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x10.size a ≤ S256x10.size a
  hwx3_5 : ∀ i : grid3.Coords, EltTy.bits .f32 = 32 ∨ (Rect.block (s := S256x10) S256x10.size (cc3_transform_5 i) (hinb3_5 i)).WholeWords (EltTy.packing .f32)

variable [Facts₀]

def scatter_S256_S40000x1_S40000_n_0_0_1 : ScatterDims S256 S40000x1 S40000 where
  updateWindowDims := []
  insertedWindowDims := [0]
  scatterDimsToOperandDims := [0]
  indexVectorDim := 1
  wf := scatter_S256_S40000x1_S40000_n_0_0_1_wf
def gather_S256_S40000x1_S40000_n_0_n_n_0_1_1 : GatherDims S256 S40000x1 S40000 where
  offsetDims := []
  collapsedSliceDims := [0]
  operandBatchingDims := []
  startIndicesBatchingDims := []
  startIndexMap := [0]
  indexVectorDim := 1
  sliceSizes := ![1]
  wf := gather_S256_S40000x1_S40000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v77) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S256x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S256 : Shape := ⟨1, ![256]⟩
abbrev S40000x1 : Shape := ⟨2, ![40000, 1]⟩
abbrev S1x128x128 : Shape := ⟨3, ![1, 128, 128]⟩
abbrev S1x128 : Shape := ⟨2, ![1, 128]⟩
abbrev S640000x1 : Shape := ⟨2, ![640000, 1]⟩
abbrev S640000x128 : Shape := ⟨2, ![640000, 128]⟩
abbrev S256x128 : Shape := ⟨2, ![256, 128]⟩
abbrev S256x1 : Shape := ⟨2, ![256, 1]⟩
abbrev S256x10 : Shape := ⟨2, ![256, 10]⟩
abbrev S1x10 : Shape := ⟨2, ![1, 10]⟩

abbrev nBuf : Space → Nat
  | .hbm => 154
  | .vmem => 0
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S3x128x128, .f32⟩
  | 4 => ⟨S3x128, .f32⟩
  | 5 => ⟨S3x128x128, .f32⟩
  | 6 => ⟨S128x128, .f32⟩
  | 7 => ⟨S128, .f32⟩
  | 8 => ⟨S128x10, .f32⟩
  | 9 => ⟨S10, .f32⟩
  | 10 => ⟨S1x640000, .i32⟩
  | 11 => ⟨S640000, .i32⟩
  | 12 => ⟨S1x640000, .i32⟩
  | 13 => ⟨S640000, .i32⟩
  | 14 => ⟨S_, .f32⟩
  | 15 => ⟨S40000, .f32⟩
  | 16 => ⟨S_, .f32⟩
  | 17 => ⟨S256, .f32⟩
  | 18 => ⟨S40000x1, .i32⟩
  | 19 => ⟨S256, .f32⟩
  | 20 => ⟨S_, .f32⟩
  | 21 => ⟨S256, .f32⟩
  | 22 => ⟨S256, .i1⟩
  | 23 => ⟨S_, .f32⟩
  | 24 => ⟨S256, .f32⟩
  | 25 => ⟨S256, .f32⟩
  | 26 => ⟨S_, .f32⟩
  | 27 => ⟨S_, .f32⟩
  | 28 => ⟨S256, .f32⟩
  | 29 => ⟨S256, .f32⟩
  | 30 => ⟨S_, .i32⟩
  | 31 => ⟨S40000, .i32⟩
  | 32 => ⟨S40000, .i1⟩
  | 33 => ⟨S_, .i32⟩
  | 34 => ⟨S40000, .i32⟩
  | 35 => ⟨S40000, .i32⟩
  | 36 => ⟨S40000, .i32⟩
  | 37 => ⟨S40000x1, .i32⟩
  | 38 => ⟨S40000, .f32⟩
  | 39 => ⟨S40000x1, .f32⟩
  | 40 => ⟨S1x128x128, .f32⟩
  | 41 => ⟨S128x128, .f32⟩
  | 42 => ⟨S1x128, .f32⟩
  | 43 => ⟨S128, .f32⟩
  | 44 => ⟨S1x128x128, .f32⟩
  | 45 => ⟨S128x128, .f32⟩
  | 46 => ⟨S_, .i32⟩
  | 47 => ⟨S640000, .i32⟩
  | 48 => ⟨S640000, .i1⟩
  | 49 => ⟨S_, .i32⟩
  | 50 => ⟨S640000, .i32⟩
  | 51 => ⟨S640000, .i32⟩
  | 52 => ⟨S640000, .i32⟩
  | 53 => ⟨S640000x1, .i32⟩
  | 54 => ⟨S640000x128, .f32⟩
  | 55 => ⟨S_, .f32⟩
  | 56 => ⟨S40000x128, .f32⟩
  | 57 => ⟨S640000x1, .i32⟩
  | 58 => ⟨S40000x128, .f32⟩
  | 59 => ⟨S40000x128, .f32⟩
  | 60 => ⟨S1x128, .f32⟩
  | 61 => ⟨S40000x128, .f32⟩
  | 62 => ⟨S40000x128, .f32⟩
  | 63 => ⟨S40000x128, .f32⟩
  | 64 => ⟨S40000x128, .f32⟩
  | 65 => ⟨S40000x128, .f32⟩
  | 66 => ⟨S40000x128, .f32⟩
  | 67 => ⟨S1x128x128, .f32⟩
  | 68 => ⟨S128x128, .f32⟩
  | 69 => ⟨S1x128, .f32⟩
  | 70 => ⟨S128, .f32⟩
  | 71 => ⟨S1x128x128, .f32⟩
  | 72 => ⟨S128x128, .f32⟩
  | 73 => ⟨S_, .i32⟩
  | 74 => ⟨S640000, .i32⟩
  | 75 => ⟨S640000, .i1⟩
  | 76 => ⟨S_, .i32⟩
  | 77 => ⟨S640000, .i32⟩
  | 78 => ⟨S640000, .i32⟩
  | 79 => ⟨S640000, .i32⟩
  | 80 => ⟨S640000x1, .i32⟩
  | 81 => ⟨S640000x128, .f32⟩
  | 82 => ⟨S_, .f32⟩
  | 83 => ⟨S40000x128, .f32⟩
  | 84 => ⟨S640000x1, .i32⟩
  | 85 => ⟨S40000x128, .f32⟩
  | 86 => ⟨S40000x128, .f32⟩
  | 87 => ⟨S1x128, .f32⟩
  | 88 => ⟨S40000x128, .f32⟩
  | 89 => ⟨S40000x128, .f32⟩
  | 90 => ⟨S40000x128, .f32⟩
  | 91 => ⟨S40000x128, .f32⟩
  | 92 => ⟨S40000x128, .f32⟩
  | 93 => ⟨S40000x128, .f32⟩
  | 94 => ⟨S1x128x128, .f32⟩
  | 95 => ⟨S128x128, .f32⟩
  | 96 => ⟨S1x128, .f32⟩
  | 97 => ⟨S128, .f32⟩
  | 98 => ⟨S1x128x128, .f32⟩
  | 99 => ⟨S128x128, .f32⟩
  | 100 => ⟨S_, .i32⟩
  | 101 => ⟨S640000, .i32⟩
  | 102 => ⟨S640000, .i1⟩
  | 103 => ⟨S_, .i32⟩
  | 104 => ⟨S640000, .i32⟩
  | 105 => ⟨S640000, .i32⟩
  | 106 => ⟨S640000, .i32⟩
  | 107 => ⟨S640000x1, .i32⟩
  | 108 => ⟨S640000x128, .f32⟩
  | 109 => ⟨S_, .f32⟩
  | 110 => ⟨S40000x128, .f32⟩
  | 111 => ⟨S640000x1, .i32⟩
  | 112 => ⟨S40000x128, .f32⟩
  | 113 => ⟨S40000x128, .f32⟩
  | 114 => ⟨S1x128, .f32⟩
  | 115 => ⟨S40000x128, .f32⟩
  | 116 => ⟨S40000x128, .f32⟩
  | 117 => ⟨S40000x128, .f32⟩
  | 118 => ⟨S40000x128, .f32⟩
  | 119 => ⟨S40000x128, .f32⟩
  | 120 => ⟨S40000x128, .f32⟩
  | 121 => ⟨S_, .f32⟩
  | 122 => ⟨S256x128, .f32⟩
  | 123 => ⟨S40000x1, .i32⟩
  | 124 => ⟨S256x128, .f32⟩
  | 125 => ⟨S256x1, .f32⟩
  | 126 => ⟨S256x128, .f32⟩
  | 127 => ⟨S256x128, .f32⟩
  | _ => ⟨S40000x128, .f32⟩

abbrev hbmTy0_1 (i : Nat) : BufTy := match i % 128 with
  | 0 => ⟨S256x128, .f32⟩
  | 1 => ⟨S1x128, .f32⟩
  | 2 => ⟨S256x128, .f32⟩
  | 3 => ⟨S256x128, .f32⟩
  | 4 => ⟨S_, .f32⟩
  | 5 => ⟨S256x128, .f32⟩
  | 6 => ⟨S256x128, .f32⟩
  | 7 => ⟨S256x10, .f32⟩
  | 8 => ⟨S1x10, .f32⟩
  | 9 => ⟨S256x10, .f32⟩
  | 10 => ⟨S256x10, .f32⟩
  | 11 => ⟨S_, .f32⟩
  | 12 => ⟨S256, .f32⟩
  | 13 => ⟨S_, .f32⟩
  | 14 => ⟨S256, .f32⟩
  | 15 => ⟨S256, .f32⟩
  | 16 => ⟨S256x1, .f32⟩
  | 17 => ⟨S256x10, .f32⟩
  | 18 => ⟨S256x10, .f32⟩
  | 19 => ⟨S256x10, .f32⟩
  | 20 => ⟨S_, .f32⟩
  | 21 => ⟨S256, .f32⟩
  | 22 => ⟨S256x1, .f32⟩
  | 23 => ⟨S256x1, .f32⟩
  | 24 => ⟨S256x10, .f32⟩
  | 25 => ⟨S256x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_v75 : Ref sig .tc := ⟨.hbm, 101, rfl⟩
abbrev main_v76 : Ref sig .tc := ⟨.hbm, 102, rfl⟩
abbrev main_c_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call1_cst : Ref sig .tc := ⟨.hbm, 132, rfl⟩
abbrev main_call1_v0 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_call2_cst : Ref sig .tc := ⟨.hbm, 139, rfl⟩
abbrev main_call2_v0 : Ref sig .tc := ⟨.hbm, 140, rfl⟩
abbrev main_call2_cst_0 : Ref sig .tc := ⟨.hbm, 141, rfl⟩
abbrev main_call2_v1 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_call2_v5 : Ref sig .tc := ⟨.hbm, 146, rfl⟩
abbrev main_call2_v6 : Ref sig .tc := ⟨.hbm, 147, rfl⟩
abbrev main_call2_cst_1 : Ref sig .tc := ⟨.hbm, 148, rfl⟩
abbrev main_call2_v7 : Ref sig .tc := ⟨.hbm, 149, rfl⟩
abbrev main_call2_v8 : Ref sig .tc := ⟨.hbm, 150, rfl⟩
abbrev main_call2_v9 : Ref sig .tc := ⟨.hbm, 151, rfl⟩
abbrev main_call2_v10 : Ref sig .tc := ⟨.hbm, 152, rfl⟩
abbrev main_v108 : Ref sig .tc := ⟨.hbm, 153, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000 : S_.BroadcastsInDim S40000 (![] : Fin 0 → Fin S40000.rank)
  bcast_S_S256 : S_.BroadcastsInDim S256 (![] : Fin 0 → Fin S256.rank)
  bcast_S40000_S40000x1_0 : S40000.BroadcastsInDim S40000x1 (![0] : Fin 1 → Fin S40000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S40000x1_S40000x128_0_1 : S40000x1.BroadcastsInDim S40000x128 (![0, 1] : Fin 2 → Fin S40000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256x128 : S_.BroadcastsInDim S256x128 (![] : Fin 0 → Fin S256x128.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S256x1_S256x10_0_1 : S256x1.BroadcastsInDim S256x10 (![0, 1] : Fin 2 → Fin S256x10.rank)
  scatter_S256_S40000x1_S40000_n_0_0_1_wf : ScatterDims.WF S256 S40000x1 S40000 [] [0] [0] 1
  gather_S256_S40000x1_S40000_n_0_n_n_0_1_1_wf : GatherDims.WF S256 S40000x1 S40000 [] [0] [] [0] [] 1 ![1]
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  scatter_S256x128_S40000x1_S40000x128_1_0_0_1_wf : ScatterDims.WF S256x128 S40000x1 S40000x128 [1] [0] [0] 1
  dot_S256x128_S128x128_S256x128_1_0_0_1_n_n_wf : DotDims.WF S256x128 S128x128 S256x128 [1] [0] [0] [1] [] []
  dot_S256x128_S128x10_S256x10_1_0_0_1_n_n_wf : DotDims.WF S256x128 S128x10 S256x10 [1] [0] [0] [1] [] []

variable [Facts₀]

def scatter_S256_S40000x1_S40000_n_0_0_1 : ScatterDims S256 S40000x1 S40000 where
  updateWindowDims := []
  insertedWindowDims := [0]
  scatterDimsToOperandDims := [0]
  indexVectorDim := 1
  wf := scatter_S256_S40000x1_S40000_n_0_0_1_wf
def gather_S256_S40000x1_S40000_n_0_n_n_0_1_1 : GatherDims S256 S40000x1 S40000 where
  offsetDims := []
  collapsedSliceDims := [0]
  operandBatchingDims := []
  startIndicesBatchingDims := []
  startIndexMap := [0]
  indexVectorDim := 1
  sliceSizes := ![1]
  wf := gather_S256_S40000x1_S40000_n_0_n_n_0_1_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def scatter_S256x128_S40000x1_S40000x128_1_0_0_1 : ScatterDims S256x128 S40000x1 S40000x128 where
  updateWindowDims := [1]
  insertedWindowDims := [0]
  scatterDimsToOperandDims := [0]
  indexVectorDim := 1
  wf := scatter_S256x128_S40000x1_S40000x128_1_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.KernelRun.lean ====
/-
  The idealized kernel's run with its result named.

  The program is ten segments: stretches of host operations and four launches.  Each segment starts from the buffer
  contents the one before it left, so the contents at the end are a fold through the program from the launch memory
  (the generated frame module names every boundary's contents).  Every weakly fair execution terminates, nothing
  faults, the arguments end as launched, and the result buffer ends at the last boundary's contents there.
-/
import proofs.«181113_j39917426049438_1_alg».proof.Proof.Gen.KernelIdeal.Frame

set_option maxRecDepth 16384

noncomputable section

namespace Cert.GraphNet.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the contents the last launch leaves. -/
theorem run_result : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.GraphNet.KernelRun

end
-- ==== Proof.GlueBase.lean ====
/-
  The buffer contents when the idealized kernel's first launch is entered, written with the reference's own stage functions
  (the first part of the boundary-by-boundary comparison; the rest is in Glue.lean).

  Both programs were lowered from the same jax code around the dense steps, so outside the four launches the kernel's
  host operations are, operation for operation, the reference's: the edge endpoints, the per-graph node counts and
  their guarded reciprocals, the scale column gathered back to the nodes, the weight slices, each layer's gather of
  neighbour rows and scatter-add onto destination rows, and the final pooling.  Where the reference applies two matrix
  products, a bias and a scale, the kernel launches a tiled layer; where it applies the dense head, the kernel launches
  the head.  Boundary by boundary: the contents the kernel's run leaves in a buffer are the reference's stage function
  of the launch arguments — for a host stretch because the operations are the same terms, for a launch because its
  result table is the layer (or the head) of what it found, which is what the reference's stages compute.
-/
import proofs.«181113_j39917426049438_1_alg».proof.Proof.Gen.KernelIdeal.Frame
import proofs.«181113_j39917426049438_1_alg».proof.Proof.RefReadPatched
import Idealize.ShloMosaic.Lib.StableHlo.Run

set_option maxRecDepth 16384

noncomputable section

namespace Cert.GraphNet.Glue

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launch arguments on core `c`, typed as the reference's stage functions take them. -/
abbrev a0 : (⟨Cert.ReferenceIdeal.S40000x128, .f32⟩ : BufTy).Contents (Elt Ideal) := m ((c.tc : Thread nD τ).loc main_arg0)
abbrev a1 : (⟨Cert.ReferenceIdeal.S2x640000, .i32⟩ : BufTy).Contents (Elt Ideal) := m ((c.tc : Thread nD τ).loc main_arg1)
abbrev a2 : (⟨Cert.ReferenceIdeal.S40000, .i32⟩ : BufTy).Contents (Elt Ideal) := m ((c.tc : Thread nD τ).loc main_arg2)
abbrev a3 : (⟨Cert.ReferenceIdeal.S3x128x128, .f32⟩ : BufTy).Contents (Elt Ideal) := m ((c.tc : Thread nD τ).loc main_arg3)
abbrev a4 : (⟨Cert.ReferenceIdeal.S3x128, .f32⟩ : BufTy).Contents (Elt Ideal) := m ((c.tc : Thread nD τ).loc main_arg4)
abbrev a5 : (⟨Cert.ReferenceIdeal.S3x128x128, .f32⟩ : BufTy).Contents (Elt Ideal) := m ((c.tc : Thread nD τ).loc main_arg5)
abbrev a6 : (⟨Cert.ReferenceIdeal.S128x128, .f32⟩ : BufTy).Contents (Elt Ideal) := m ((c.tc : Thread nD τ).loc main_arg6)
abbrev a7 : (⟨Cert.ReferenceIdeal.S128, .f32⟩ : BufTy).Contents (Elt Ideal) := m ((c.tc : Thread nD τ).loc main_arg7)
abbrev a8 : (⟨Cert.ReferenceIdeal.S128x10, .f32⟩ : BufTy).Contents (Elt Ideal) := m ((c.tc : Thread nD τ).loc main_arg8)
abbrev a9 : (⟨Cert.ReferenceIdeal.S10, .f32⟩ : BufTy).Contents (Elt Ideal) := m ((c.tc : Thread nD τ).loc main_arg9)

/-- What every boundary from the first launch on still holds: the two edge-endpoint rows, the guarded reciprocal counts,
    the scale column, and the arguments read later. -/
structure Kept (W : Valuation τ sig (Elt Ideal)) : Prop where
  src : W (Proc.devRef .tc main_v1) = val_main_v1 (F := Ideal) (a1 m c)
  dst : W (Proc.devRef .tc main_v3) = val_main_v3 (F := Ideal) (a1 m c)
  inv : W (Proc.devRef .tc main_v12) = val_main_v12 (F := Ideal) (a2 m c)
  scale : W (Proc.devRef .tc main_v20) = val_main_v20 (F := Ideal) (a2 m c)
  g2 : W (Proc.devRef .tc main_arg2) = a2 m c
  g3 : W (Proc.devRef .tc main_arg3) = a3 m c
  g4 : W (Proc.devRef .tc main_arg4) = a4 m c
  g5 : W (Proc.devRef .tc main_arg5) = a5 m c
  g6 : W (Proc.devRef .tc main_arg6) = a6 m c
  g7 : W (Proc.devRef .tc main_arg7) = a7 m c
  g8 : W (Proc.devRef .tc main_arg8) = a8 m c
  g9 : W (Proc.devRef .tc main_arg9) = a9 m c

/-! ## Before the first launch -/

set_option maxRecDepth 65536 in
theorem kept3_src : W3 m ρ c (Proc.devRef .tc main_v1) = val_main_v1 (F := Ideal) (a1 m c) := by
  show StableHlo.after hostOps0_2 (StableHlo.after hostOps0_1 (StableHlo.after hostOps0 (W0 m ρ c))) (Proc.devRef .tc main_v1) = _
  after_results_simp
  exact rfl
set_option maxRecDepth 65536 in
theorem kept3_dst : W3 m ρ c (Proc.devRef .tc main_v3) = val_main_v3 (F := Ideal) (a1 m c) := by
  show StableHlo.after hostOps0_2 (StableHlo.after hostOps0_1 (StableHlo.after hostOps0 (W0 m ρ c))) (Proc.devRef .tc main_v3) = _
  after_results_simp
  exact rfl
set_option maxRecDepth 65536 in
theorem kept3_inv : W3 m ρ c (Proc.devRef .tc main_v12) = val_main_v12 (F := Ideal) (a2 m c) := by
  show StableHlo.after hostOps0_2 (StableHlo.after hostOps0_1 (StableHlo.after hostOps0 (W0 m ρ c))) (Proc.devRef .tc main_v12) = _
  after_results_simp <;> exact rfl
set_option maxRecDepth 65536 in
theorem kept3_scale : W3 m ρ c (Proc.devRef .tc main_v20) = val_main_v20 (F := Ideal) (a2 m c) := by
  show StableHlo.after hostOps0_2 (StableHlo.after hostOps0_1 (StableHlo.after hostOps0 (W0 m ρ c))) (Proc.devRef .tc main_v20) = _
  after_results_simp <;> exact rfl
set_option maxRecDepth 65536 in
theorem kept3_g2 : W3 m ρ c (Proc.devRef .tc main_arg2) = a2 m c := by
  show StableHlo.after hostOps0_2 (StableHlo.after hostOps0_1 (StableHlo.after hostOps0 (W0 m ρ c))) (Proc.devRef .tc main_arg2) = _
  after_results_simp <;> exact rfl
set_option maxRecDepth 65536 in
theorem kept3_g3 : W3 m ρ c (Proc.devRef .tc main_arg3) = a3 m c := by
  show StableHlo.after hostOps0_2 (StableHlo.after hostOps0_1 (StableHlo.after hostOps0 (W0 m ρ c))) (Proc.devRef .tc main_arg3) = _
  after_results_simp <;> exact rfl
set_option maxRecDepth 65536 in
theorem kept3_g4 : W3 m ρ c (Proc.devRef .tc main_arg4) = a4 m c := by
  show StableHlo.after hostOps0_2 (StableHlo.after hostOps0_1 (StableHlo.after hostOps0 (W0 m ρ c))) (Proc.devRef .tc main_arg4) = _
  after_results_simp <;> exact rfl
set_option maxRecDepth 65536 in
theorem kept3_g5 : W3 m ρ c (Proc.devRef .tc main_arg5) = a5 m c := by
  show StableHlo.after hostOps0_2 (StableHlo.after hostOps0_1 (StableHlo.after hostOps0 (W0 m ρ c))) (Proc.devRef .tc main_arg5) = _
  after_results_simp <;> exact rfl
set_option maxRecDepth 65536 in
theorem kept3_g6 : W3 m ρ c (Proc.devRef .tc main_arg6) = a6 m c := by
  show StableHlo.after hostOps0_2 (StableHlo.after hostOps0_1 (StableHlo.after hostOps0 (W0 m ρ c))) (Proc.devRef .tc main_arg6) = _
  after_results_simp <;> exact rfl
set_option maxRecDepth 65536 in
theorem kept3_g7 : W3 m ρ c (Proc.devRef .tc main_arg7) = a7 m c := by
  show StableHlo.after hostOps0_2 (StableHlo.after hostOps0_1 (StableHlo.after hostOps0 (W0 m ρ c))) (Proc.devRef .tc main_arg7) = _
  after_results_simp <;> exact rfl
set_option maxRecDepth 65536 in
theorem kept3_g8 : W3 m ρ c (Proc.devRef .tc main_arg8) = a8 m c := by
  show StableHlo.after hostOps0_2 (StableHlo.after hostOps0_1 (StableHlo.after hostOps0 (W0 m ρ c))) (Proc.devRef .tc main_arg8) = _
  after_results_simp <;> exact rfl
set_option maxRecDepth 65536 in
theorem kept3_g9 : W3 m ρ c (Proc.devRef .tc main_arg9) = a9 m c := by
  show StableHlo.after hostOps0_2 (StableHlo.after hostOps0_1 (StableHlo.after hostOps0 (W0 m ρ c))) (Proc.devRef .tc main_arg9) = _
  after_results_simp <;> exact rfl

theorem kept3 : Kept m c (W3 m ρ c) :=
  ⟨kept3_src m ρ c, kept3_dst m ρ c, kept3_inv m ρ c, kept3_scale m ρ c, kept3_g2 m ρ c, kept3_g3 m ρ c, kept3_g4 m ρ c, kept3_g5 m ρ c, kept3_g6 m ρ c, kept3_g7 m ρ c, kept3_g8 m ρ c, kept3_g9 m ρ c⟩

set_option maxHeartbeats 2000000 in
set_option maxRecDepth 65536 in
theorem entry1_feat : W3 m ρ c (Proc.devRef .tc main_arg0) = a0 m c := by
  show StableHlo.after hostOps0_2 (StableHlo.after hostOps0_1 (StableHlo.after hostOps0 (W0 m ρ c))) (Proc.devRef .tc main_arg0) = _
  after_results_simp <;> exact rfl
set_option maxHeartbeats 2000000 in
set_option maxRecDepth 65536 in
theorem entry1_agg : W3 m ρ c (Proc.devRef .tc main_v30) = val_main_v36 (F := Ideal) (a0 m c) (a1 m c) := by
  show StableHlo.after hostOps0_2 (StableHlo.after hostOps0_1 (StableHlo.after hostOps0 (W0 m ρ c))) (Proc.devRef .tc main_v30) = _
  after_results_simp <;> exact rfl
set_option maxHeartbeats 2000000 in
set_option maxRecDepth 65536 in
theorem entry1_wrel : W3 m ρ c (Proc.devRef .tc main_v32) = val_main_v22 (F := Ideal) (a3 m c) := by
  show StableHlo.after hostOps0_2 (StableHlo.after hostOps0_1 (StableHlo.after hostOps0 (W0 m ρ c))) (Proc.devRef .tc main_v32) = _
  after_results_simp <;> exact rfl
set_option maxHeartbeats 2000000 in
set_option maxRecDepth 65536 in
theorem entry1_brel : W3 m ρ c (Proc.devRef .tc main_v34) = val_main_v24 (F := Ideal) (a4 m c) := by
  show StableHlo.after hostOps0_2 (StableHlo.after hostOps0_1 (StableHlo.after hostOps0 (W0 m ρ c))) (Proc.devRef .tc main_v34) = _
  after_results_simp <;> exact rfl
set_option maxHeartbeats 2000000 in
set_option maxRecDepth 65536 in
theorem entry1_wroot : W3 m ρ c (Proc.devRef .tc main_v36) = val_main_v26 (F := Ideal) (a5 m c) := by
  show StableHlo.after hostOps0_2 (StableHlo.after hostOps0_1 (StableHlo.after hostOps0 (W0 m ρ c))) (Proc.devRef .tc main_v36) = _
  after_results_simp <;> exact rfl

end Cert.GraphNet.Glue

end
-- ==== Proof.Spec.lean ====
/-
  What both programs compute, as functions on extended reals, index by index.

  A graph-convolution layer maps node features `h` and their neighbourhood sums `agg` (both [N, 128]) to
      out(p, q) = ((Σ_k agg(p,k)·w_rel(k,q)) + b_rel(q) + Σ_k h(p,k)·w_root(k,q)) · scale(p),
  the two matrix products taken with exact sums, the bias added between them, and the whole row scaled by the node's
  graph-size reciprocal.  The read-out head maps pooled graph features [256, 128] to log-probabilities [256, 10]:
      hid(r,j)   = max((Σ_k pooled(r,k)·w1(k,j)) + b1(j), 0)
      logit(r,q) = (Σ_j hid(r,j)·w2(j,q)) + b2(q)
      out(r,q)   = (logit(r,q) − m(r)) − log Σ_q' exp(logit(r,q') − m(r)),   m(r) = max(−∞, max_q logit(r,q)).
  The number of rows `n` of a layer is a parameter: the same formula is read on the whole node table (n = 40000) and on
  one tile of it (n = 5000), and a tile of the table's result is the result of the tile (`layerAt` only looks at row `p`).
-/
import Idealize.ShloMosaic.PureOps.Ideal
import Idealize.ShloMosaic.Lib.ValueIdx

noncomputable section

open scoped BigOperators

namespace Cert.GraphNet

open Idealize.ShloMosaic Idealize.ShloMosaic.ValueIdx

/-- The float pattern of −∞ and of +0, as the extended reals they denote (never evaluated: both programs carry the
    same words). -/
abbrev negInf : EReal := Ideal.ofBits .f32 0xFF800000#32
abbrev zeroF : EReal := Ideal.ofBits .f32 0x00000000#32

/-- One layer at node `p`, feature `q`, over a table of `n` nodes. -/
def layerAt {n : Nat} (agg h : (⟨2, ![n, 128]⟩ : Shape).Idx → EReal) (sc : (⟨2, ![n, 1]⟩ : Shape).Idx → EReal)
    (wr : (⟨2, ![128, 128]⟩ : Shape).Idx → EReal) (br : (⟨1, ![128]⟩ : Shape).Idx → EReal)
    (wroot : (⟨2, ![128, 128]⟩ : Shape).Idx → EReal) (p : Fin n) (q : Fin 128) : EReal :=
  ((∑ k : Fin 128, agg (ix2 p k) * wr (ix2 k q)) + br (ix1 q) + ∑ k : Fin 128, h (ix2 p k) * wroot (ix2 k q))
    * sc (ix2 p (0 : Fin 1))

/-- One layer as a table. -/
def layer {n : Nat} (agg h : (⟨2, ![n, 128]⟩ : Shape).Idx → EReal) (sc : (⟨2, ![n, 1]⟩ : Shape).Idx → EReal)
    (wr : (⟨2, ![128, 128]⟩ : Shape).Idx → EReal) (br : (⟨1, ![128]⟩ : Shape).Idx → EReal)
    (wroot : (⟨2, ![128, 128]⟩ : Shape).Idx → EReal) : (⟨2, ![n, 128]⟩ : Shape).Idx → EReal :=
  fun i => layerAt agg h sc wr br wroot (i 0) (i 1)

theorem layer_ix2 {n : Nat} (agg h : (⟨2, ![n, 128]⟩ : Shape).Idx → EReal) (sc : (⟨2, ![n, 1]⟩ : Shape).Idx → EReal)
    (wr : (⟨2, ![128, 128]⟩ : Shape).Idx → EReal) (br : (⟨1, ![128]⟩ : Shape).Idx → EReal)
    (wroot : (⟨2, ![128, 128]⟩ : Shape).Idx → EReal) (p : Fin n) (q : Fin 128) :
    layer agg h sc wr br wroot (ix2 p q) = layerAt agg h sc wr br wroot p q := rfl

/-- The hidden activation of graph `r`, unit `j`. -/
def hidAt (pooled : (⟨2, ![256, 128]⟩ : Shape).Idx → EReal) (w1 : (⟨2, ![128, 128]⟩ : Shape).Idx → EReal)
    (b1 : (⟨1, ![128]⟩ : Shape).Idx → EReal) (r : Fin 256) (j : Fin 128) : EReal :=
  max ((∑ k : Fin 128, pooled (ix2 r k) * w1 (ix2 k j)) + b1 (ix1 j)) zeroF

/-- The logit of graph `r`, class `q`. -/
def logitAt (pooled : (⟨2, ![256, 128]⟩ : Shape).Idx → EReal) (w1 : (⟨2, ![128, 128]⟩ : Shape).Idx → EReal)
    (b1 : (⟨1, ![128]⟩ : Shape).Idx → EReal) (w2 : (⟨2, ![128, 10]⟩ : Shape).Idx → EReal)
    (b2 : (⟨1, ![10]⟩ : Shape).Idx → EReal) (r : Fin 256) (q : Fin 10) : EReal :=
  (∑ j : Fin 128, hidAt pooled w1 b1 r j * w2 (ix2 j q)) + b2 (ix1 q)

/-- The largest logit of graph `r`, as a fold of `max` from −∞ over the ten classes, joined once more with −∞. -/
def rowMax (lg : Fin 256 → Fin 10 → EReal) (r : Fin 256) : EReal :=
  max negInf ((Finset.univ : Finset (Fin 10)).fold max negInf (fun q => lg r q))

/-- Log-softmax of a table of logits at (r, q). -/
def logSoftmaxAt (lg : Fin 256 → Fin 10 → EReal) (r : Fin 256) (q : Fin 10) : EReal :=
  (lg r q - rowMax lg r) - Ideal.log (∑ q' : Fin 10, Ideal.exp (lg r q' - rowMax lg r))

/-- The read-out head at (r, q). -/
def headAt (pooled : (⟨2, ![256, 128]⟩ : Shape).Idx → EReal) (w1 : (⟨2, ![128, 128]⟩ : Shape).Idx → EReal)
    (b1 : (⟨1, ![128]⟩ : Shape).Idx → EReal) (w2 : (⟨2, ![128, 10]⟩ : Shape).Idx → EReal)
    (b2 : (⟨1, ![10]⟩ : Shape).Idx → EReal) (r : Fin 256) (q : Fin 10) : EReal :=
  logSoftmaxAt (logitAt pooled w1 b1 w2 b2) r q

/-- The read-out head as a table. -/
def head (pooled : (⟨2, ![256, 128]⟩ : Shape).Idx → EReal) (w1 : (⟨2, ![128, 128]⟩ : Shape).Idx → EReal)
    (b1 : (⟨1, ![128]⟩ : Shape).Idx → EReal) (w2 : (⟨2, ![128, 10]⟩ : Shape).Idx → EReal)
    (b2 : (⟨1, ![10]⟩ : Shape).Idx → EReal) : (⟨2, ![256, 10]⟩ : Shape).Idx → EReal :=
  fun i => headAt pooled w1 b1 w2 b2 (i 0) (i 1)

theorem head_ix2 (pooled : (⟨2, ![256, 128]⟩ : Shape).Idx → EReal) (w1 : (⟨2, ![128, 128]⟩ : Shape).Idx → EReal)
    (b1 : (⟨1, ![128]⟩ : Shape).Idx → EReal) (w2 : (⟨2, ![128, 10]⟩ : Shape).Idx → EReal)
    (b2 : (⟨1, ![10]⟩ : Shape).Idx → EReal) (r : Fin 256) (q : Fin 10) :
    head pooled w1 b1 w2 b2 (ix2 r q) = headAt pooled w1 b1 w2 b2 r q := rfl

end Cert.GraphNet

end
-- ==== Proof.LibColumnLayout.lean ====
/-
  A column kept as a table of one column, and spread over several columns.

  Reducing a table along its rows and keeping the reduced axis gives an [a, 1] table; it is the [a] vector recast, and
  spreading it over b columns repeats each row's one entry: two layout facts read at an index.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` table broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.LayerPayload.lean ====
/-
  The body of one graph-convolution tile, read at an index.

  A tile holds 5000 consecutive nodes.  Its body forms  agg·w_rel  and  h·w_root  on the matrix unit (into zero
  accumulators, so each is the plain sum over the 128 input features), adds the bias row between the two products,
  and scales row p by that node's reciprocal graph size; rounding the operands to bf16 on the way in is the identity
  on extended reals.  Entry (p, q) of what the tile stores is therefore the layer formula of the specification,
  read on the tile's own 5000 rows.
-/
import proofs.«181113_j39917426049438_1_alg».proof.Proof.Gen.KernelIdeal.Skeleton
import proofs.«181113_j39917426049438_1_alg».proof.Proof.Spec
import proofs.«181113_j39917426049438_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GraphNet.LayerKernel

open Cert.KernelIdeal Cert.KernelIdeal.Gen Idealize.ShloMosaic Idealize.ShloMosaic.ValueIdx Idealize.ShloMosaic.ColumnLayout

/-- The dimension record of a [5000,128] x [128,128] product. -/
abbrev tileDot := dot_S5000x128_S128x128_S5000x128_1_0_0_1_n_n

theorem tileDot_lhs_row (i : S5000x128.Idx) (c : tileDot.contr.Idx) : (tileDot.lhsIdx i c 0).val = (i 0).val := by
  unfold DotDims.lhsIdx
  rw [dif_neg (show ¬(0 : Fin S5000x128.rank) ∈ tileDot.lhsBatch by decide), dif_pos (show (0 : Fin S5000x128.rank) ∈ tileDot.lhsNonContracting by decide)]
  rfl

theorem tileDot_rhs_col (i : S5000x128.Idx) (c : tileDot.contr.Idx) : (tileDot.rhsIdx i c 1).val = (i 1).val := by
  unfold DotDims.rhsIdx
  rw [dif_neg (show ¬(1 : Fin S128x128.rank) ∈ tileDot.rhsBatch by decide), dif_pos (show (1 : Fin S128x128.rank) ∈ tileDot.rhsNonContracting by decide)]
  rfl

/-- A tile's matrix product into a zero accumulator, at (p, q): the sum over the contracted feature. -/
theorem tile_matmul_apply {φ₁ φ₂ : FTy} (a : FVec Ideal S5000x128 φ₁) (b : FVec Ideal S128x128 φ₂) (p : Fin 5000) (q : Fin 128) :
    matmul tileDot none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 tileDot 128 rfl rfl).symm]
  refine Finset.sum_congr rfl fun k _ => ?_
  have hk := contrEquiv1_symm_val tileDot 128 rfl rfl k
  have el : tileDot.lhsIdx (ix2 p q) ((contrEquiv1 tileDot 128 rfl rfl).symm k) = ix2 p k := funext fun ax => Fin.ext (by
    match ax with
    | ⟨0, _⟩ => exact tileDot_lhs_row _ _
    | ⟨1, _⟩ => exact (tileDot.lhsIdx_val_of_single rfl _ _).trans hk)
  have er : tileDot.rhsIdx (ix2 p q) ((contrEquiv1 tileDot 128 rfl rfl).symm k) = ix2 k q := funext fun ax => Fin.ext (by
    match ax with
    | ⟨0, _⟩ => exact (tileDot.rhsIdx_val_of_single rfl _ _).trans hk
    | ⟨1, _⟩ => exact tileDot_rhs_col _ _)
  rw [el, er]

/-- The tile's arithmetic at (p, q) is the layer formula on the tile's rows. -/
theorem tile_arith_apply (agg h : FVec Ideal S5000x128 .f32) (wr wroot : FVec Ideal S128x128 .f32) (br : FVec Ideal S128 .f32)
    (sc : FVec Ideal S5000x1 .f32) (p : Fin 5000) (q : Fin 128) :
    mulf (addf (addf (matmul tileDot none (truncf .bf16 agg bitsLt_bf16_f32) (truncf .bf16 wr bitsLt_bf16_f32) (constant (F := Ideal) S5000x128 .f32 0x00000000#32))
          (broadcastTo S5000x128 (shapeCast S1x128 br shapeCasts_S128_S1x128) broadcasts_S1x128_S5000x128))
        (matmul tileDot none (truncf .bf16 h bitsLt_bf16_f32) (truncf .bf16 wroot bitsLt_bf16_f32) (constant (F := Ideal) S5000x128 .f32 0x00000000#32)))
      (broadcastTo S5000x128 sc broadcasts_S5000x1_S5000x128) (ix2 p q)
    = GraphNet.layerAt (n := 5000) agg h sc wr br wroot p q := by
  rw [mulf_apply, addf_apply, addf_apply, tile_matmul_apply, tile_matmul_apply,
    broadcastTo_1b_ab_apply, shapeCast_a_1a_apply, broadcastTo_a1_ab_apply]
  rfl

/-- Layer 1's tile body. -/
theorem pay0_apply (v0 v3 : Vec Ideal S5000x128 .f32) (v5 v8 : Vec Ideal S128x128 .f32) (v12 : Vec Ideal S128 .f32)
    (v19 : Vec Ideal S5000x1 .f32) (p : Fin 5000) (q : Fin 128) :
    k0_pay1 (F := Ideal) v0 v3 v5 v8 v12 v19 (ix2 p q) = GraphNet.layerAt (n := 5000) v0 v3 v19 v5 v12 v8 p q := by
  unfold k0_pay1
  simp only [shapeCast_self]
  exact tile_arith_apply v0 v3 v5 v8 v12 v19 p q

/-- Layer 2's tile body. -/
theorem pay1_apply (v0 v3 : Vec Ideal S5000x128 .f32) (v6 v9 : Vec Ideal S128x128 .f32) (v13 : Vec Ideal S128 .f32)
    (v20 : Vec Ideal S5000x1 .f32) (p : Fin 5000) (q : Fin 128) :
    k1_pay1 (F := Ideal) v0 v3 v6 v9 v13 v20 (ix2 p q) = GraphNet.layerAt (n := 5000) v0 v3 v20 v6 v13 v9 p q := by
  unfold k1_pay1
  simp only [shapeCast_self]
  exact tile_arith_apply v0 v3 v6 v9 v13 v20 p q

/-- Layer 3's tile body. -/
theorem pay2_apply (v0 v3 : Vec Ideal S5000x128 .f32) (v6 v9 : Vec Ideal S128x128 .f32) (v13 : Vec Ideal S128 .f32)
    (v20 : Vec Ideal S5000x1 .f32) (p : Fin 5000) (q : Fin 128) :
    k2_pay1 (F := Ideal) v0 v3 v6 v9 v13 v20 (ix2 p q) = GraphNet.layerAt (n := 5000) v0 v3 v20 v6 v13 v9 p q := by
  unfold k2_pay1
  simp only [shapeCast_self]
  exact tile_arith_apply v0 v3 v6 v9 v13 v20 p q

/-- The layer formula only looks at row `p` of the node tables: if a tile's row `p` is the table's row `P` (and the
    weights, the bias and the scale agree where they are read), the formula on the tile at (p, q) is the formula on
    the table at (P, q). -/
theorem layerAt_of_rows {n n' : Nat} (aggB hB : (⟨2, ![n, 128]⟩ : Shape).Idx → EReal) (scB : (⟨2, ![n, 1]⟩ : Shape).Idx → EReal)
    (wrB : (⟨2, ![128, 128]⟩ : Shape).Idx → EReal) (brB : (⟨1, ![128]⟩ : Shape).Idx → EReal) (wrootB : (⟨2, ![128, 128]⟩ : Shape).Idx → EReal)
    (agg h : (⟨2, ![n', 128]⟩ : Shape).Idx → EReal) (sc : (⟨2, ![n', 1]⟩ : Shape).Idx → EReal)
    (wr : (⟨2, ![128, 128]⟩ : Shape).Idx → EReal) (br : (⟨1, ![128]⟩ : Shape).Idx → EReal) (wroot : (⟨2, ![128, 128]⟩ : Shape).Idx → EReal)
    (p : Fin n) (P : Fin n') (q : Fin 128)
    (ha : ∀ k : Fin 128, aggB (ix2 p k) = agg (ix2 P k)) (hh : ∀ k : Fin 128, hB (ix2 p k) = h (ix2 P k))
    (hs : scB (ix2 p (0 : Fin 1)) = sc (ix2 P (0 : Fin 1)))
    (hwr : ∀ k : Fin 128, wrB (ix2 k q) = wr (ix2 k q)) (hbr : brB (ix1 q) = br (ix1 q))
    (hwroot : ∀ k : Fin 128, wrootB (ix2 k q) = wroot (ix2 k q)) :
    GraphNet.layerAt aggB hB scB wrB brB wrootB p q = GraphNet.layerAt agg h sc wr br wroot P q := by
  unfold GraphNet.layerAt
  rw [hs, hbr, Finset.sum_congr rfl (fun k _ => by rw [ha k, hwr k] : ∀ k ∈ Finset.univ, aggB (ix2 p k) * wrB (ix2 k q) = agg (ix2 P k) * wr (ix2 k q)),
    Finset.sum_congr rfl (fun k _ => by rw [hh k, hwroot k] : ∀ k ∈ Finset.univ, hB (ix2 p k) * wrootB (ix2 k q) = h (ix2 P k) * wroot (ix2 k q))]

end Cert.GraphNet.LayerKernel

end
-- ==== Proof.LayerRegion0.lean ====
/-
  Layer 1 as one table: what the tiled launch leaves in the node table it writes.

  The launch walks the 40000 nodes in 8 tiles of 5000.  Tile t reads rows 5000·t … 5000·t + 4999 of the neighbourhood
  sums, of the node features and of the scale column, together with the whole weight matrices and bias row, and writes
  the same rows of the result.  By the tile body's formula, what tile t writes back is rows 5000·t … of the layer's
  table computed from the WHOLE inputs; the eight tiles cover every row (row r lies in tile r / 5000), so after the launch
  the result table is the layer of the inputs as the launch found them.
-/
import proofs.«181113_j39917426049438_1_alg».proof.Proof.Gen.KernelIdeal.Frame
import proofs.«181113_j39917426049438_1_alg».proof.Proof.LayerPayload

set_option maxRecDepth 16384

noncomputable section

namespace Cert.GraphNet.LayerKernel

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem off2_zero0 : (![0, 0] : Fin 2 → Nat) = fun _ => 0 := funext fun a => by fin_cases a <;> rfl
theorem off1_zero0 : (![0] : Fin 1 → Nat) = fun _ => 0 := funext fun a => by fin_cases a <;> rfl

/-- The block indices over the grid: the three row-tiled inputs move with the output, whose block row is the point's
    number; the weights and the bias are one block. -/
theorem tile_index0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem tile_count0 : ∀ t : Fin cfg0.N, t.val < 8 := (by decide +kernel : ∀ t : Fin grid0.N, t.val < 8)

/-- Every tile number is some point's. -/
theorem tile_onto0 : ∀ b : Fin 8, ∃ t : Fin cfg0.N, t.val = b.val :=
  (by decide +kernel : ∀ b : Fin 8, ∃ t : Fin grid0.N, t.val = b.val)

/-- What tile `t` writes back is its block of the layer's table of the inputs as the launch finds them. -/
theorem tile_flushed0 (c : Dev nD) (t : Fin cfg0.N) :
    (dat0 V c).flushed 6 t = ((cfg0.win 6).blk t).view.read (Elt Ideal)
      (GraphNet.layer (n := 40000) (V c main_v30) (V c main_arg0) (V c main_v20) (V c main_v32) (V c main_v34) (V c main_v36)) := by
  show (cfg0.win 6).cut (grid0.coords t) ((dat0 V c).after 6 t) = _
  rw [after0_6]
  unfold out0_6
  rw [View.canon_unit_zero off2_zero0]
  simp only [View.ld_unit_zero (S := S5000x128) off2_zero0, View.ld_unit_zero (S := S128x128) off2_zero0,
    View.ld_unit_zero (S := S128) off1_zero0, View.ld_unit_zero (S := S5000x1) off2_zero0]
  obtain ⟨e00, e01, e10, e11, e20, e21, e30, e31, e40, e50, e51, e60, e61⟩ := tile_index0 t
  have ht : t.val < 8 := tile_count0 t
  funext j
  obtain ⟨p, q, rfl⟩ : ∃ (p : Fin 5000) (q : Fin 128), j = ix2 p q := ⟨j 0, j 1, eq_ix2 j⟩
  have hp : p.val < 5000 := p.isLt
  have hq : q.val < 128 := q.isLt
  let P : Fin 40000 := ⟨t.val * 5000 + p.val, by omega⟩
  have hout : ((cfg0.win 6).blk t).view.emb (ix2 p q) = ix2 P q := by
    funext a; apply Fin.ext
    match a with
    | ⟨0, _⟩ => show win0_6.index t (0 : Fin 2) * 5000 + 1 * p.val = t.val * 5000 + p.val; omega
    | ⟨1, _⟩ => show win0_6.index t (1 : Fin 2) * 128 + 1 * q.val = q.val; omega
  show k0_pay1 (F := Ideal) (iblk0 V c 0 t) (iblk0 V c 1 t) (iblk0 V c 3 t) (iblk0 V c 5 t) (iblk0 V c 4 t) (iblk0 V c 2 t) (ix2 p q)
    = GraphNet.layer (n := 40000) (V c main_v30) (V c main_arg0) (V c main_v20) (V c main_v32) (V c main_v34) (V c main_v36)
        (((cfg0.win 6).blk t).view.emb (ix2 p q))
  rw [hout, GraphNet.layer_ix2]
  refine (pay0_apply (iblk0 V c 0 t) (iblk0 V c 1 t) (iblk0 V c 3 t) (iblk0 V c 5 t) (iblk0 V c 4 t) (iblk0 V c 2 t) p q).trans ?_
  refine layerAt_of_rows (iblk0 V c 0 t) (iblk0 V c 1 t) (iblk0 V c 2 t) (iblk0 V c 3 t) (iblk0 V c 4 t) (iblk0 V c 5 t)
    (V c main_v30) (V c main_arg0) (V c main_v20) (V c main_v32) (V c main_v34) (V c main_v36) p P q ?_ ?_ ?_ ?_ ?_ ?_
  · intro k
    have hk : k.val < 128 := k.isLt
    show V c main_v30 (((cfg0.win 0).blk t).view.emb (ix2 p k)) = V c main_v30 (ix2 P k)
    refine congrArg (V c main_v30) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    have hk : k.val < 128 := k.isLt
    show V c main_arg0 (((cfg0.win 1).blk t).view.emb (ix2 p k)) = V c main_arg0 (ix2 P k)
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 128 + 1 * k.val = k.val; omega
  · show V c main_v20 (((cfg0.win 2).blk t).view.emb (ix2 p (0 : Fin 1))) = V c main_v20 (ix2 P (0 : Fin 1))
    refine congrArg (V c main_v20) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  · intro k
    have hk : k.val < 128 := k.isLt
    show V c main_v32 (((cfg0.win 3).blk t).view.emb (ix2 k q)) = V c main_v32 (ix2 k q)
    refine congrArg (V c main_v32) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · show V c main_v34 (((cfg0.win 4).blk t).view.emb (ix1 q)) = V c main_v34 (ix1 q)
    refine congrArg (V c main_v34) (funext fun a => Fin.ext ?_)
    match a with
    | ⟨0, _⟩ => show win0_4.index t (0 : Fin 1) * 128 + 1 * q.val = q.val; omega
  · intro k
    have hk : k.val < 128 := k.isLt
    show V c main_v36 (((cfg0.win 5).blk t).view.emb (ix2 k q)) = V c main_v36 (ix2 k q)
    refine congrArg (V c main_v36) (funext fun a => Fin.ext ?_)
    match a with
    | ⟨0, _⟩ => show win0_5.index t (0 : Fin 2) * 128 + 1 * k.val = k.val; omega
    | ⟨1, _⟩ => show win0_5.index t (1 : Fin 2) * 128 + 1 * q.val = q.val; omega

/-- A row of the table is in tile `t`'s block iff it lies in that tile's range on each axis. -/
theorem tile_mem0 (t : Fin cfg0.N) (i : S40000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v37).slice (win0_6.rect t)).set ↔ _
  rw [View.set_slice_whole, Rect.mem_set_unit]
  exact Iff.rfl

/-- The eight tiles cover the table. -/
theorem tile_cover0 (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  obtain ⟨t, ht⟩ := tile_onto0 ⟨(i 0).val / 5000, by omega⟩
  have ht' : t.val = (i 0).val / 5000 := ht
  obtain ⟨e00, e01, e10, e11, e20, e21, e30, e31, e40, e50, e51, e60, e61⟩ := tile_index0 t
  refine ⟨t, flush0_6 t, ?_⟩
  rw [tile_mem0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After the launch the result table is the layer of the inputs as the launch found them. -/
theorem layer_table0 (c : Dev nD) :
    (dat0 V c).arrAt 6 cfg0.N
      = GraphNet.layer (n := 40000) (V c main_v30) (V c main_arg0) (V c main_v20) (V c main_v32) (V c main_v34) (V c main_v36) :=
  (dat0 V c).arrAt_eq_of_cover 6 _ (fun t _ => tile_flushed0 V c t) (tile_cover0)

end Cert.GraphNet.LayerKernel

end
-- ==== Proof.LayerRegion1.lean ====
/-
  Layer 2 as one table: what the tiled launch leaves in the node table it writes.

  The launch walks the 40000 nodes in 8 tiles of 5000.  Tile t reads rows 5000·t … 5000·t + 4999 of the neighbourhood
  sums, of the node features and of the scale column, together with the whole weight matrices and bias row, and writes
  the same rows of the result.  By the tile body's formula, what tile t writes back is rows 5000·t … of the layer's
  table computed from the WHOLE inputs; the eight tiles cover every row (row r lies in tile r / 5000), so after the launch
  the result table is the layer of the inputs as the launch found them.
-/
import proofs.«181113_j39917426049438_1_alg».proof.Proof.Gen.KernelIdeal.Frame
import proofs.«181113_j39917426049438_1_alg».proof.Proof.LayerPayload

set_option maxRecDepth 16384

noncomputable section

namespace Cert.GraphNet.LayerKernel

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem off2_zero1 : (![0, 0] : Fin 2 → Nat) = fun _ => 0 := funext fun a => by fin_cases a <;> rfl
theorem off1_zero1 : (![0] : Fin 1 → Nat) = fun _ => 0 := funext fun a => by fin_cases a <;> rfl

/-- The block indices over the grid: the three row-tiled inputs move with the output, whose block row is the point's
    number; the weights and the bias are one block. -/
theorem tile_index1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem tile_count1 : ∀ t : Fin cfg1.N, t.val < 8 := (by decide +kernel : ∀ t : Fin grid1.N, t.val < 8)

/-- Every tile number is some point's. -/
theorem tile_onto1 : ∀ b : Fin 8, ∃ t : Fin cfg1.N, t.val = b.val :=
  (by decide +kernel : ∀ b : Fin 8, ∃ t : Fin grid1.N, t.val = b.val)

set_option maxHeartbeats 4000000 in
/-- What tile `t` writes back is its block of the layer's table of the inputs as the launch finds them. -/
theorem tile_flushed1 (c : Dev nD) (t : Fin cfg1.N) :
    (dat1 V c).flushed 6 t = ((cfg1.win 6).blk t).view.read (Elt Ideal)
      (GraphNet.layer (n := 40000) (V c main_v47) (V c main_v37) (V c main_v20) (V c main_v49) (V c main_v51) (V c main_v53)) := by
  show (cfg1.win 6).cut (grid1.coords t) ((dat1 V c).after 6 t) = _
  rw [after1_6]
  unfold out1_6
  rw [View.canon_unit_zero off2_zero1]
  simp only [View.ld_unit_zero (S := S5000x128) off2_zero1, View.ld_unit_zero (S := S128x128) off2_zero1,
    View.ld_unit_zero (S := S128) off1_zero1, View.ld_unit_zero (S := S5000x1) off2_zero1]
  obtain ⟨e00, e01, e10, e11, e20, e21, e30, e31, e40, e50, e51, e60, e61⟩ := tile_index1 t
  have ht : t.val < 8 := tile_count1 t
  funext j
  obtain ⟨p, q, rfl⟩ : ∃ (p : Fin 5000) (q : Fin 128), j = ix2 p q := ⟨j 0, j 1, eq_ix2 j⟩
  have hp : p.val < 5000 := p.isLt
  have hq : q.val < 128 := q.isLt
  let P : Fin 40000 := ⟨t.val * 5000 + p.val, by omega⟩
  have hout : ((cfg1.win 6).blk t).view.emb (ix2 p q) = ix2 P q := by
    funext a; apply Fin.ext
    match a with
    | ⟨0, _⟩ => show win1_6.index t (0 : Fin 2) * 5000 + 1 * p.val = t.val * 5000 + p.val; omega
    | ⟨1, _⟩ => show win1_6.index t (1 : Fin 2) * 128 + 1 * q.val = q.val; omega
  show k1_pay1 (F := Ideal) (iblk1 V c 0 t) (iblk1 V c 1 t) (iblk1 V c 3 t) (iblk1 V c 5 t) (iblk1 V c 4 t) (iblk1 V c 2 t) (ix2 p q)
    = GraphNet.layer (n := 40000) (V c main_v47) (V c main_v37) (V c main_v20) (V c main_v49) (V c main_v51) (V c main_v53)
        (((cfg1.win 6).blk t).view.emb (ix2 p q))
  rw [hout, GraphNet.layer_ix2]
  refine (pay1_apply (iblk1 V c 0 t) (iblk1 V c 1 t) (iblk1 V c 3 t) (iblk1 V c 5 t) (iblk1 V c 4 t) (iblk1 V c 2 t) p q).trans ?_
  refine layerAt_of_rows (iblk1 V c 0 t) (iblk1 V c 1 t) (iblk1 V c 2 t) (iblk1 V c 3 t) (iblk1 V c 4 t) (iblk1 V c 5 t)
    (V c main_v47) (V c main_v37) (V c main_v20) (V c main_v49) (V c main_v51) (V c main_v53) p P q ?_ ?_ ?_ ?_ ?_ ?_
  · intro k
    have hk : k.val < 128 := k.isLt
    show V c main_v47 (((cfg1.win 0).blk t).view.emb (ix2 p k)) = V c main_v47 (ix2 P k)
    refine congrArg (V c main_v47) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    have hk : k.val < 128 := k.isLt
    show V c main_v37 (((cfg1.win 1).blk t).view.emb (ix2 p k)) = V c main_v37 (ix2 P k)
    refine congrArg (V c main_v37) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * k.val = k.val; omega
  · show V c main_v20 (((cfg1.win 2).blk t).view.emb (ix2 p (0 : Fin 1))) = V c main_v20 (ix2 P (0 : Fin 1))
    refine congrArg (V c main_v20) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · intro k
    have hk : k.val < 128 := k.isLt
    show V c main_v49 (((cfg1.win 3).blk t).view.emb (ix2 k q)) = V c main_v49 (ix2 k q)
    refine congrArg (V c main_v49) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · show V c main_v51 (((cfg1.win 4).blk t).view.emb (ix1 q)) = V c main_v51 (ix1 q)
    refine congrArg (V c main_v51) (funext fun a => Fin.ext ?_)
    match a with
    | ⟨0, _⟩ => show win1_4.index t (0 : Fin 1) * 128 + 1 * q.val = q.val; omega
  · intro k
    have hk : k.val < 128 := k.isLt
    show V c main_v53 (((cfg1.win 5).blk t).view.emb (ix2 k q)) = V c main_v53 (ix2 k q)
    refine congrArg (V c main_v53) (funext fun a => Fin.ext ?_)
    match a with
    | ⟨0, _⟩ => show win1_5.index t (0 : Fin 2) * 128 + 1 * k.val = k.val; omega
    | ⟨1, _⟩ => show win1_5.index t (1 : Fin 2) * 128 + 1 * q.val = q.val; omega

/-- A row of the table is in tile `t`'s block iff it lies in that tile's range on each axis. -/
theorem tile_mem1 (t : Fin cfg1.N) (i : S40000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v54).slice (win1_6.rect t)).set ↔ _
  rw [View.set_slice_whole, Rect.mem_set_unit]
  exact Iff.rfl

/-- The eight tiles cover the table. -/
theorem tile_cover1 (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  obtain ⟨t, ht⟩ := tile_onto1 ⟨(i 0).val / 5000, by omega⟩
  have ht' : t.val = (i 0).val / 5000 := ht
  obtain ⟨e00, e01, e10, e11, e20, e21, e30, e31, e40, e50, e51, e60, e61⟩ := tile_index1 t
  refine ⟨t, flush1_6 t, ?_⟩
  rw [tile_mem1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the launch the result table is the layer of the inputs as the launch found them. -/
theorem layer_table1 (c : Dev nD) :
    (dat1 V c).arrAt 6 cfg1.N
      = GraphNet.layer (n := 40000) (V c main_v47) (V c main_v37) (V c main_v20) (V c main_v49) (V c main_v51) (V c main_v53) :=
  (dat1 V c).arrAt_eq_of_cover 6 _ (fun t _ => tile_flushed1 V c t) (tile_cover1)

end Cert.GraphNet.LayerKernel

end
-- ==== Proof.LayerRegion2.lean ====
/-
  Layer 3 as one table: what the tiled launch leaves in the node table it writes.

  The launch walks the 40000 nodes in 8 tiles of 5000.  Tile t reads rows 5000·t … 5000·t + 4999 of the neighbourhood
  sums, of the node features and of the scale column, together with the whole weight matrices and bias row, and writes
  the same rows of the result.  By the tile body's formula, what tile t writes back is rows 5000·t … of the layer's
  table computed from the WHOLE inputs; the eight tiles cover every row (row r lies in tile r / 5000), so after the launch
  the result table is the layer of the inputs as the launch found them.
-/
import proofs.«181113_j39917426049438_1_alg».proof.Proof.Gen.KernelIdeal.Frame
import proofs.«181113_j39917426049438_1_alg».proof.Proof.LayerPayload

set_option maxRecDepth 16384

noncomputable section

namespace Cert.GraphNet.LayerKernel

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem off2_zero2 : (![0, 0] : Fin 2 → Nat) = fun _ => 0 := funext fun a => by fin_cases a <;> rfl
theorem off1_zero2 : (![0] : Fin 1 → Nat) = fun _ => 0 := funext fun a => by fin_cases a <;> rfl

/-- The block indices over the grid: the three row-tiled inputs move with the output, whose block row is the point's
    number; the weights and the bias are one block. -/
theorem tile_index2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem tile_count2 : ∀ t : Fin cfg2.N, t.val < 8 := (by decide +kernel : ∀ t : Fin grid2.N, t.val < 8)

/-- Every tile number is some point's. -/
theorem tile_onto2 : ∀ b : Fin 8, ∃ t : Fin cfg2.N, t.val = b.val :=
  (by decide +kernel : ∀ b : Fin 8, ∃ t : Fin grid2.N, t.val = b.val)

set_option maxHeartbeats 4000000 in
/-- What tile `t` writes back is its block of the layer's table of the inputs as the launch finds them. -/
theorem tile_flushed2 (c : Dev nD) (t : Fin cfg2.N) :
    (dat2 V c).flushed 6 t = ((cfg2.win 6).blk t).view.read (Elt Ideal)
      (GraphNet.layer (n := 40000) (V c main_v64) (V c main_v54) (V c main_v20) (V c main_v66) (V c main_v68) (V c main_v70)) := by
  show (cfg2.win 6).cut (grid2.coords t) ((dat2 V c).after 6 t) = _
  rw [after2_6]
  unfold out2_6
  rw [View.canon_unit_zero off2_zero2]
  simp only [View.ld_unit_zero (S := S5000x128) off2_zero2, View.ld_unit_zero (S := S128x128) off2_zero2,
    View.ld_unit_zero (S := S128) off1_zero2, View.ld_unit_zero (S := S5000x1) off2_zero2]
  obtain ⟨e00, e01, e10, e11, e20, e21, e30, e31, e40, e50, e51, e60, e61⟩ := tile_index2 t
  have ht : t.val < 8 := tile_count2 t
  funext j
  obtain ⟨p, q, rfl⟩ : ∃ (p : Fin 5000) (q : Fin 128), j = ix2 p q := ⟨j 0, j 1, eq_ix2 j⟩
  have hp : p.val < 5000 := p.isLt
  have hq : q.val < 128 := q.isLt
  let P : Fin 40000 := ⟨t.val * 5000 + p.val, by omega⟩
  have hout : ((cfg2.win 6).blk t).view.emb (ix2 p q) = ix2 P q := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  show k2_pay1 (F := Ideal) (iblk2 V c 0 t) (iblk2 V c 1 t) (iblk2 V c 3 t) (iblk2 V c 5 t) (iblk2 V c 4 t) (iblk2 V c 2 t) (ix2 p q)
    = GraphNet.layer (n := 40000) (V c main_v64) (V c main_v54) (V c main_v20) (V c main_v66) (V c main_v68) (V c main_v70)
        (((cfg2.win 6).blk t).view.emb (ix2 p q))
  rw [hout, GraphNet.layer_ix2]
  refine (pay2_apply (iblk2 V c 0 t) (iblk2 V c 1 t) (iblk2 V c 3 t) (iblk2 V c 5 t) (iblk2 V c 4 t) (iblk2 V c 2 t) p q).trans ?_
  refine layerAt_of_rows (iblk2 V c 0 t) (iblk2 V c 1 t) (iblk2 V c 2 t) (iblk2 V c 3 t) (iblk2 V c 4 t) (iblk2 V c 5 t)
    (V c main_v64) (V c main_v54) (V c main_v20) (V c main_v66) (V c main_v68) (V c main_v70) p P q ?_ ?_ ?_ ?_ ?_ ?_
  · intro k
    have hk : k.val < 128 := k.isLt
    show V c main_v64 (((cfg2.win 0).blk t).view.emb (ix2 p k)) = V c main_v64 (ix2 P k)
    refine congrArg (V c main_v64) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    have hk : k.val < 128 := k.isLt
    show V c main_v54 (((cfg2.win 1).blk t).view.emb (ix2 p k)) = V c main_v54 (ix2 P k)
    refine congrArg (V c main_v54) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  · show V c main_v20 (((cfg2.win 2).blk t).view.emb (ix2 p (0 : Fin 1))) = V c main_v20 (ix2 P (0 : Fin 1))
    refine congrArg (V c main_v20) (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  · intro k
    have hk : k.val < 128 := k.isLt
    show V c main_v66 (((cfg2.win 3).blk t).view.emb (ix2 k q)) = V c main_v66 (ix2 k q)
    refine congrArg (V c main_v66) (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  · show V c main_v68 (((cfg2.win 4).blk t).view.emb (ix1 q)) = V c main_v68 (ix1 q)
    refine congrArg (V c main_v68) (funext fun a => Fin.ext ?_)
    match a with
    | ⟨0, _⟩ => show win2_4.index t (0 : Fin 1) * 128 + 1 * q.val = q.val; omega
  · intro k
    have hk : k.val < 128 := k.isLt
    show V c main_v70 (((cfg2.win 5).blk t).view.emb (ix2 k q)) = V c main_v70 (ix2 k q)
    refine congrArg (V c main_v70) (funext fun a => Fin.ext ?_)
    match a with
    | ⟨0, _⟩ => show win2_5.index t (0 : Fin 2) * 128 + 1 * k.val = k.val; omega
    | ⟨1, _⟩ => show win2_5.index t (1 : Fin 2) * 128 + 1 * q.val = q.val; omega

/-- A row of the table is in tile `t`'s block iff it lies in that tile's range on each axis. -/
theorem tile_mem2 (t : Fin cfg2.N) (i : S40000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v71).slice (win2_6.rect t)).set ↔ _
  rw [View.set_slice_whole, Rect.mem_set_unit]
  exact Iff.rfl

/-- The eight tiles cover the table. -/
theorem tile_cover2 (i : S40000x128.Idx) :
    ∃ t : Fin cfg2.N, (cfg2.win 6).flush t = true ∧ i ∈ ((cfg2.win 6).blk t).view.set := by
  have hi0 : (i 0).val < 40000 := (i 0).isLt
  have hi1 : (i 1).val < 128 := (i 1).isLt
  obtain ⟨t, ht⟩ := tile_onto2 ⟨(i 0).val / 5000, by omega⟩
  have ht' : t.val = (i 0).val / 5000 := ht
  obtain ⟨e00, e01, e10, e11, e20, e21, e30, e31, e40, e50, e51, e60, e61⟩ := tile_index2 t
  refine ⟨t, flush2_6 t, ?_⟩
  rw [tile_mem2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- After the launch the result table is the layer of the inputs as the launch found them. -/
theorem layer_table2 (c : Dev nD) :
    (dat2 V c).arrAt 6 cfg2.N
      = GraphNet.layer (n := 40000) (V c main_v64) (V c main_v54) (V c main_v20) (V c main_v66) (V c main_v68) (V c main_v70) :=
  (dat2 V c).arrAt_eq_of_cover 6 _ (fun t _ => tile_flushed2 V c t) (tile_cover2)

end Cert.GraphNet.LayerKernel

end
-- ==== Proof.HeadPayload.lean ====
/-
  The body of the read-out head, read at an index.

  The head's one grid point holds every array whole.  Its body forms  pooled·w1  on the matrix unit (into a zero
  accumulator, so the plain sum over the 128 features), adds the bias row and clips below at zero; forms  hid·w2  the
  same way and adds the second bias row: the logits.  It then takes each row's largest logit (a fold of max from −∞
  over the ten classes, joined once more with −∞), subtracts it, exponentiates, sums the ten terms, takes the
  logarithm and subtracts again.  Rounding the operands of the two products to bf16 is the identity on extended
  reals.  Entry (r, q) of what the body stores is therefore the specification's log-softmax of the logits.
-/
import proofs.«181113_j39917426049438_1_alg».proof.Proof.Gen.KernelIdeal.Skeleton
import proofs.«181113_j39917426049438_1_alg».proof.Proof.Spec
import proofs.«181113_j39917426049438_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.GraphNet.HeadKernel

open Cert.KernelIdeal Cert.KernelIdeal.Gen Idealize.ShloMosaic Idealize.ShloMosaic.ValueIdx Idealize.ShloMosaic.ColumnLayout

/-! ## The two matrix products -/

/-- The dimension record of the [256,128] x [128,128] product. -/
abbrev hidDot := dot_S256x128_S128x128_S256x128_1_0_0_1_n_n

/-- The dimension record of the [256,128] x [128,10] product. -/
abbrev outDot := dot_S256x128_S128x10_S256x10_1_0_0_1_n_n

theorem hidDot_lhs_row (i : S256x128.Idx) (c : hidDot.contr.Idx) : (hidDot.lhsIdx i c 0).val = (i 0).val := by
  unfold DotDims.lhsIdx
  rw [dif_neg (show ¬(0 : Fin S256x128.rank) ∈ hidDot.lhsBatch by decide), dif_pos (show (0 : Fin S256x128.rank) ∈ hidDot.lhsNonContracting by decide)]
  rfl

theorem hidDot_rhs_col (i : S256x128.Idx) (c : hidDot.contr.Idx) : (hidDot.rhsIdx i c 1).val = (i 1).val := by
  unfold DotDims.rhsIdx
  rw [dif_neg (show ¬(1 : Fin S128x128.rank) ∈ hidDot.rhsBatch by decide), dif_pos (show (1 : Fin S128x128.rank) ∈ hidDot.rhsNonContracting by decide)]
  rfl

theorem outDot_lhs_row (i : S256x10.Idx) (c : outDot.contr.Idx) : (outDot.lhsIdx i c 0).val = (i 0).val := by
  unfold DotDims.lhsIdx
  rw [dif_neg (show ¬(0 : Fin S256x128.rank) ∈ outDot.lhsBatch by decide), dif_pos (show (0 : Fin S256x128.rank) ∈ outDot.lhsNonContracting by decide)]
  rfl

theorem outDot_rhs_col (i : S256x10.Idx) (c : outDot.contr.Idx) : (outDot.rhsIdx i c 1).val = (i 1).val := by
  unfold DotDims.rhsIdx
  rw [dif_neg (show ¬(1 : Fin S128x10.rank) ∈ outDot.rhsBatch by decide), dif_pos (show (1 : Fin S128x10.rank) ∈ outDot.rhsNonContracting by decide)]
  rfl

/-- The first product into a zero accumulator, at (r, j): the sum over the contracted feature. -/
theorem hid_matmul_apply {φ₁ φ₂ : FTy} (a : FVec Ideal S256x128 φ₁) (b : FVec Ideal S128x128 φ₂) (r : Fin 256) (j : Fin 128) :
    matmul hidDot none a b (constant (F := Ideal) S256x128 .f32 0x00000000#32) (ix2 r j)
      = ∑ k : Fin 128, a (ix2 r k) * b (ix2 k j) := by
  simp only [matmul]
  rw [Ideal.matmul_constant_zero_apply, ← Equiv.sum_comp (contrEquiv1 hidDot 128 rfl rfl).symm]
  refine Finset.sum_congr rfl fun k _ => ?_
  have hk := contrEquiv1_symm_val hidDot 128 rfl rfl k
  have el : hidDot.lhsIdx (ix2 r j) ((contrEquiv1 hidDot 128 rfl rfl).symm k) = ix2 r k := funext fun ax => Fin.ext (by
    match ax with
    | ⟨0, _⟩ => exact hidDot_lhs_row _ _
    | ⟨1, _⟩ => exact (hidDot.lhsIdx_val_of_single rfl _ _).trans hk)
  have er : hidDot.rhsIdx (ix2 r j) ((contrEquiv1 hidDot 128 rfl rfl).symm k) = ix2 k j := funext fun ax => Fin.ext (by
    match ax with
    | ⟨0, _⟩ => exact (hidDot.rhsIdx_val_of_single rfl _ _).trans hk
    | ⟨1, _⟩ => exact hidDot_rhs_col _ _)
  rw [el, er]

/-- The second product into a zero accumulator, at (r, q): the sum over the 128 hidden units. -/
theorem out_matmul_apply {φ₁ φ₂ : FTy} (a : FVec Ideal S256x128 φ₁) (b : FVec Ideal S128x10 φ₂) (r : Fin 256) (q : Fin 10) :
    matmul outDot none a b (constant (F := Ideal) S256x10 .f32 0x00000000#32) (ix2 r q)
      = ∑ k : Fin 128, a (ix2 r k) * b (ix2 k q) := by
  simp only [matmul]
  rw [Ideal.matmul_constant_zero_apply, ← Equiv.sum_comp (contrEquiv1 outDot 128 rfl rfl).symm]
  refine Finset.sum_congr rfl fun k _ => ?_
  have hk := contrEquiv1_symm_val outDot 128 rfl rfl k
  have el : outDot.lhsIdx (ix2 r q) ((contrEquiv1 outDot 128 rfl rfl).symm k) = ix2 r k := funext fun ax => Fin.ext (by
    match ax with
    | ⟨0, _⟩ => exact outDot_lhs_row _ _
    | ⟨1, _⟩ => exact (outDot.lhsIdx_val_of_single rfl _ _).trans hk)
  have er : outDot.rhsIdx (ix2 r q) ((contrEquiv1 outDot 128 rfl rfl).symm k) = ix2 k q := funext fun ax => Fin.ext (by
    match ax with
    | ⟨0, _⟩ => exact (outDot.rhsIdx_val_of_single rfl _ _).trans hk
    | ⟨1, _⟩ => exact outDot_rhs_col _ _)
  rw [el, er]

/-! ## The two reductions along a row -/

/-- Over row `r` of a [256,10] table, the index with class coordinate `k`. -/
theorem lift_row (h : S256x10.Reduces [1] S256) (r : Fin 256) (k : Fin 10) : h.lift (ix1 r) k = ix2 r k :=
  funext fun ax => Fin.ext (by
    match ax with
    | ⟨0, _⟩ => rfl
    | ⟨1, _⟩ => rfl)

/-- A row's maximum: the fold of max from −∞ over the row's ten entries. -/
theorem row_max_apply (src : FVec Ideal S256x10 .f32) (h : S256x10.Reduces [1] S256) (hφ : FKind.Formats FTy.f32)
    (hacc : (0xFF800000#32 : BitVec FTy.f32.bits) = FKind.maximumf.neutral .f32 hφ) (r : Fin 256) :
    multiReduction (F := Ideal) .maximumf [1] S256 src 0xFF800000#32 h hφ hacc (ix1 r)
      = (Finset.univ : Finset (Fin 10)).fold max negInf (fun q => src (ix2 r q)) :=
  (Ideal.multiReduction_maximumf_single src 0xFF800000#32 h hφ hacc (ix1 r)).trans
    (congrArg (fun f : Fin 10 → EReal => (Finset.univ : Finset (Fin 10)).fold max negInf f)
      (funext fun k : Fin 10 => congrArg src (lift_row h r k)))

/-- A row's sum: the sum of the row's ten entries. -/
theorem row_sum_apply (src : FVec Ideal S256x10 .f32) (h : S256x10.Reduces [1] S256) (hφ : FKind.Formats FTy.f32)
    (hacc : (0x00000000#32 : BitVec FTy.f32.bits) = FKind.add.neutral .f32 hφ) (r : Fin 256) :
    multiReduction (F := Ideal) .add [1] S256 src 0x00000000#32 h hφ hacc (ix1 r) = ∑ q : Fin 10, src (ix2 r q) :=
  (Ideal.multiReduction_add_single src 0x00000000#32 h hφ hacc (ix1 r)).trans
    (Finset.sum_congr rfl fun k _ => congrArg src (lift_row h r k))

/-! ## The body in stages -/

section Stages
variable (v0 : Vec Ideal S256x128 .f32) (v3 : Vec Ideal S128x128 .f32) (v6 : Vec Ideal S128 .f32)
  (v12 : Vec Ideal S128x10 .f32) (v16 : Vec Ideal S10 .f32)

/-- The hidden activations as the body forms them. -/
def hidV : FVec Ideal S256x128 .f32 :=
  maximumf
    (addf (matmul hidDot none (truncf .bf16 v0 bitsLt_bf16_f32) (truncf .bf16 v3 bitsLt_bf16_f32) (constant (F := Ideal) S256x128 .f32 0x00000000#32))
      (broadcastTo S256x128 (shapeCast S1x128 v6 shapeCasts_S128_S1x128) broadcasts_S1x128_S256x128))
    (broadcast S256x128 (Scalar.ofBits (F := Ideal) .f32 0x00000000#32))

/-- The logits as the body forms them. -/
def logitV : FVec Ideal S256x10 .f32 :=
  addf (matmul outDot none (truncf .bf16 (hidV v0 v3 v6) bitsLt_bf16_f32) (truncf .bf16 v12 bitsLt_bf16_f32) (constant (F := Ideal) S256x10 .f32 0x00000000#32))
    (broadcastTo S256x10 (shapeCast S1x10 v16 shapeCasts_S10_S1x10) broadcasts_S1x10_S256x10)

/-- Each row's largest logit as the body forms it. -/
def maxV : FVec Ideal S256 .f32 :=
  maximumf (broadcast S256 (Scalar.ofBits (F := Ideal) .f32 0xFF800000#32))
    (multiReduction (F := Ideal) .maximumf [1] S256 (logitV v0 v3 v6 v12 v16) 0xFF800000#32 reduces_S256x10_S256 (.inl rfl) rfl)

/-- The logits less their row's maximum. -/
def shiftV : FVec Ideal S256x10 .f32 :=
  subf (logitV v0 v3 v6 v12 v16)
    (broadcastTo S256x10 (shapeCast S256x1 (maxV v0 v3 v6 v12 v16) shapeCasts_S256_S256x1) broadcasts_S256x1_S256x10)

/-- What the body stores. -/
def outV : FVec Ideal S256x10 .f32 :=
  subf (shiftV v0 v3 v6 v12 v16)
    (broadcastTo S256x10
      (log (shapeCast S256x1
        (multiReduction (F := Ideal) .add [1] S256 (exp (shiftV v0 v3 v6 v12 v16)) 0x00000000#32 reduces_S256x10_S256 (.inl rfl) rfl)
        shapeCasts_S256_S256x1))
      broadcasts_S256x1_S256x10)

/-- The generated payload is these stages composed. -/
theorem pay_eq_outV : k3_pay1 (F := Ideal) v0 v3 v6 v12 v16 = outV v0 v3 v6 v12 v16 := by
  unfold k3_pay1
  simp only [shapeCast_self]
  rfl

theorem hidV_apply (r : Fin 256) (j : Fin 128) : hidV v0 v3 v6 (ix2 r j) = GraphNet.hidAt v0 v3 v6 r j := by
  unfold hidV
  rw [maximumf_apply, addf_apply, hid_matmul_apply, broadcastTo_1b_ab_apply, shapeCast_a_1a_apply]
  rfl

theorem logitV_apply (r : Fin 256) (q : Fin 10) :
    logitV v0 v3 v6 v12 v16 (ix2 r q) = GraphNet.logitAt v0 v3 v6 v12 v16 r q := by
  unfold logitV
  rw [addf_apply, out_matmul_apply, broadcastTo_1b_ab_apply, shapeCast_a_1a_apply]
  unfold GraphNet.logitAt
  refine congrArg (· + v16 (ix1 q)) (Finset.sum_congr rfl fun k _ => ?_)
  show hidV v0 v3 v6 (ix2 r k) * v12 (ix2 k q) = _
  rw [hidV_apply]

theorem maxV_apply (r : Fin 256) :
    maxV v0 v3 v6 v12 v16 (ix1 r) = GraphNet.rowMax (GraphNet.logitAt v0 v3 v6 v12 v16) r := by
  unfold maxV
  rw [maximumf_apply]
  unfold GraphNet.rowMax
  refine congrArg (max negInf) ((row_max_apply _ _ _ _ r).trans ?_)
  refine congrArg (fun f : Fin 10 → EReal => (Finset.univ : Finset (Fin 10)).fold max negInf f) ?_
  funext q
  exact logitV_apply v0 v3 v6 v12 v16 r q

theorem shiftV_apply (r : Fin 256) (q : Fin 10) :
    shiftV v0 v3 v6 v12 v16 (ix2 r q)
      = GraphNet.logitAt v0 v3 v6 v12 v16 r q - GraphNet.rowMax (GraphNet.logitAt v0 v3 v6 v12 v16) r := by
  unfold shiftV
  rw [subf_apply, broadcastTo_a1_ab_apply, shapeCast_a_a1_apply, logitV_apply, maxV_apply]

theorem outV_apply (r : Fin 256) (q : Fin 10) :
    outV v0 v3 v6 v12 v16 (ix2 r q) = GraphNet.headAt v0 v3 v6 v12 v16 r q := by
  unfold outV
  rw [subf_apply, broadcastTo_a1_ab_apply, shiftV_apply]
  show _ - Ideal.log (shapeCast S256x1 _ shapeCasts_S256_S256x1 (ix2 r (0 : Fin 1))) = _
  rw [shapeCast_a_a1_apply]
  unfold GraphNet.headAt GraphNet.logSoftmaxAt
  refine congrArg
    (fun s => (GraphNet.logitAt v0 v3 v6 v12 v16 r q - GraphNet.rowMax (GraphNet.logitAt v0 v3 v6 v12 v16) r) - Ideal.log s)
    ((row_sum_apply _ _ _ _ r).trans (Finset.sum_congr rfl fun k _ => ?_))
  show Ideal.exp (shiftV v0 v3 v6 v12 v16 (ix2 r k)) = _
  rw [shiftV_apply]

end Stages

/-- The head's body at (r, q) is the specification's head at (r, q). -/
theorem pay3_apply (v0 : Vec Ideal S256x128 .f32) (v3 : Vec Ideal S128x128 .f32) (v6 : Vec Ideal S128 .f32)
    (v12 : Vec Ideal S128x10 .f32) (v16 : Vec Ideal S10 .f32) (r : Fin 256) (q : Fin 10) :
    k3_pay1 (F := Ideal) v0 v3 v6 v12 v16 (ix2 r q) = GraphNet.headAt v0 v3 v6 v12 v16 r q := by
  rw [pay_eq_outV]
  exact outV_apply v0 v3 v6 v12 v16 r q

end Cert.GraphNet.HeadKernel

end
-- ==== Proof.HeadRegion.lean ====
/-
  The read-out head's region, read as one function of the arrays it is entered with.

  The head's grid has one point, and every window's block at that point is its whole array: each block index is 0, so
  a block coordinate is the array coordinate.  The body therefore reads the five argument arrays whole, and the one
  block it writes back is the whole [256,10] result: the array ends holding the specification's head of the five
  arrays, index by index.
-/
import proofs.«181113_j39917426049438_1_alg».proof.Proof.Gen.KernelIdeal.Frame
import proofs.«181113_j39917426049438_1_alg».proof.Proof.HeadPayload
import Idealize.ShloMosaic.Lib.Pipeline.Value

noncomputable section

namespace Cert.GraphNet.HeadKernel

open Cert.KernelIdeal Cert.KernelIdeal.Gen Idealize.ShloMosaic Idealize.ShloMosaic.TcCoe Idealize.ShloMosaic.ValueIdx
open Idealize.SL.Sem
open Idealize.ShloMosaic.Pipeline (Dat Cfg Window)

/-- The body's payload is the specification's head of the blocks it loads, as a table. -/
theorem pay3_eq_head (x0 : Vec Ideal S256x128 .f32) (x1 : Vec Ideal S128x128 .f32) (x2 : Vec Ideal S128 .f32)
    (x3 : Vec Ideal S128x10 .f32) (x4 : Vec Ideal S10 .f32) :
    k3_pay1 (F := Ideal) x0 x1 x2 x3 x4 = GraphNet.head x0 x1 x2 x3 x4 := by
  funext j
  obtain ⟨r, q, rfl⟩ : ∃ (r : Fin 256) (q : Fin 10), j = ix2 r q := ⟨j 0, j 1, eq_ix2 j⟩
  rw [pay3_apply, GraphNet.head_ix2]

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: every window's block index is 0 on every axis. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0 :=
  (by decide +kernel : ∀ t : Fin grid3.N, _)

variable (V : (c : Dev nD) → (b : Ref sig .tc) → Buf (Elt Ideal) ((c : Thread nD τ).loc b))

/-- Window 0's block at the point is its whole array. -/
theorem iblk_0 (c : Dev nD) (t : Fin cfg3.N) (y : S256x128.Idx) : iblk3 V c 0 t y = V c (Pipeline.arrRef spec3 0) y := by
  obtain ⟨e0, e1, -⟩ := idx_facts t
  show V c (Pipeline.arrRef spec3 0) (((cfg3.win 0).blk t).view.emb y) = V c (Pipeline.arrRef spec3 0) y
  refine congrArg (V c (Pipeline.arrRef spec3 0)) (funext fun a => Fin.ext ?_)
  match a with
  | ⟨0, _⟩ => show win3_0.index t (0 : Fin 2) * 256 + 1 * (y 0).val = (y 0).val; omega
  | ⟨1, _⟩ => show win3_0.index t (1 : Fin 2) * 128 + 1 * (y 1).val = (y 1).val; omega

/-- Window 1's block at the point is its whole array. -/
theorem iblk_1 (c : Dev nD) (t : Fin cfg3.N) (y : S128x128.Idx) : iblk3 V c 1 t y = V c (Pipeline.arrRef spec3 1) y := by
  obtain ⟨-, -, e0, e1, -⟩ := idx_facts t
  show V c (Pipeline.arrRef spec3 1) (((cfg3.win 1).blk t).view.emb y) = V c (Pipeline.arrRef spec3 1) y
  refine congrArg (V c (Pipeline.arrRef spec3 1)) (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- Window 2's block at the point is its whole array. -/
theorem iblk_2 (c : Dev nD) (t : Fin cfg3.N) (y : S128.Idx) : iblk3 V c 2 t y = V c (Pipeline.arrRef spec3 2) y := by
  obtain ⟨-, -, -, -, e0, -⟩ := idx_facts t
  show V c (Pipeline.arrRef spec3 2) (((cfg3.win 2).blk t).view.emb y) = V c (Pipeline.arrRef spec3 2) y
  refine congrArg (V c (Pipeline.arrRef spec3 2)) (funext fun a => Fin.ext ?_)
  match a with
  | ⟨0, _⟩ => show win3_2.index t (0 : Fin 1) * 128 + 1 * (y 0).val = (y 0).val; omega

/-- Window 3's block at the point is its whole array. -/
theorem iblk_3 (c : Dev nD) (t : Fin cfg3.N) (y : S128x10.Idx) : iblk3 V c 3 t y = V c (Pipeline.arrRef spec3 3) y := by
  obtain ⟨-, -, -, -, -, e0, e1, -⟩ := idx_facts t
  show V c (Pipeline.arrRef spec3 3) (((cfg3.win 3).blk t).view.emb y) = V c (Pipeline.arrRef spec3 3) y
  refine congrArg (V c (Pipeline.arrRef spec3 3)) (funext fun a => Fin.ext ?_)
  match a with
  | ⟨0, _⟩ => show win3_3.index t (0 : Fin 2) * 128 + 1 * (y 0).val = (y 0).val; omega
  | ⟨1, _⟩ => show win3_3.index t (1 : Fin 2) * 10 + 1 * (y 1).val = (y 1).val; omega

/-- Window 4's block at the point is its whole array. -/
theorem iblk_4 (c : Dev nD) (t : Fin cfg3.N) (y : S10.Idx) : iblk3 V c 4 t y = V c (Pipeline.arrRef spec3 4) y := by
  obtain ⟨-, -, -, -, -, -, -, e0, -⟩ := idx_facts t
  show V c (Pipeline.arrRef spec3 4) (((cfg3.win 4).blk t).view.emb y) = V c (Pipeline.arrRef spec3 4) y
  refine congrArg (V c (Pipeline.arrRef spec3 4)) (funext fun a => Fin.ext ?_)
  match a with
  | ⟨0, _⟩ => show win3_4.index t (0 : Fin 1) * 10 + 1 * (y 0).val = (y 0).val; omega

/-- The head of the five arrays the region is entered with. -/
abbrev headOf (c : Dev nD) : S256x10.Idx → EReal :=
  GraphNet.head (V c (Pipeline.arrRef spec3 0)) (V c (Pipeline.arrRef spec3 1)) (V c (Pipeline.arrRef spec3 2))
    (V c (Pipeline.arrRef spec3 3)) (V c (Pipeline.arrRef spec3 4))

/-- What the one point writes back is its block of the head of the five arrays. -/
theorem flushed_eq (c : Dev nD) (t : Fin cfg3.N) :
    (dat3 V c).flushed 5 t = ((cfg3.win 5).blk t).view.read (Elt Ideal) (headOf V c) := by
  show (cfg3.win 5).cut (grid3.coords t) ((dat3 V c).after 5 t) = _
  rw [after3_5]
  unfold out3_5
  rw [View.canon_unit_zero hz2]
  simp only [View.ld_unit_zero (S := S256x128) hz2, View.ld_unit_zero (S := S128x128) hz2, View.ld_unit_zero (S := S128) hz1,
    View.ld_unit_zero (S := S128x10) hz2, View.ld_unit_zero (S := S10) hz1]
  rw [pay3_eq_head]
  have e0 : iblk3 V c 0 t = V c (Pipeline.arrRef spec3 0) := funext (iblk_0 V c t)
  have e1 : iblk3 V c 1 t = V c (Pipeline.arrRef spec3 1) := funext (iblk_1 V c t)
  have e2 : iblk3 V c 2 t = V c (Pipeline.arrRef spec3 2) := funext (iblk_2 V c t)
  have e3 : iblk3 V c 3 t = V c (Pipeline.arrRef spec3 3) := funext (iblk_3 V c t)
  have e4 : iblk3 V c 4 t = V c (Pipeline.arrRef spec3 4) := funext (iblk_4 V c t)
  rw [e0, e1, e2, e3, e4]
  obtain ⟨-, -, -, -, -, -, -, -, i0, i1⟩ := idx_facts t
  funext j
  show headOf V c j = headOf V c (((cfg3.win 5).blk t).view.emb j)
  refine congrArg (headOf V c) (funext fun a => Fin.ext ?_)
  match a with
  | ⟨0, _⟩ => show (j 0).val = win3_5.index t (0 : Fin 2) * 256 + 1 * (j 0).val; omega
  | ⟨1, _⟩ => show (j 1).val = win3_5.index t (1 : Fin 2) * 10 + 1 * (j 1).val; omega

/-- An index of the result is in the point's block iff each coordinate is in the block's range on its axis. -/
theorem mem_blk (t : Fin cfg3.N) (i : S256x10.Idx) :
    i ∈ ((cfg3.win 5).blk t).view.set ↔ ∀ a : Fin 2, win3_5.index t a * S256x10.size a ≤ (i a).val ∧ (i a).val < win3_5.index t a * S256x10.size a + S256x10.size a := by
  show i ∈ ((View.whole main_v78).slice (win3_5.rect t)).set ↔ _
  rw [View.set_slice_whole, Rect.mem_set_unit]
  exact Iff.rfl

/-- Every index of the result is in the one point's block. -/
theorem cover (i : S256x10.Idx) : ∃ t : Fin cfg3.N, (cfg3.win 5).flush t = true ∧ i ∈ ((cfg3.win 5).blk t).view.set := by
  refine ⟨t3_0, flush3_5 t3_0, ?_⟩
  rw [mem_blk]
  obtain ⟨-, -, -, -, -, -, -, -, i0, i1⟩ := idx_facts t3_0
  have h0 : (i 0).val < 256 := (i 0).isLt
  have h1 : (i 1).val < 10 := (i 1).isLt
  intro a
  match a with
  | ⟨0, _⟩ => show win3_5.index t3_0 (0 : Fin 2) * 256 ≤ (i 0).val ∧ (i 0).val < win3_5.index t3_0 (0 : Fin 2) * 256 + 256; omega
  | ⟨1, _⟩ => show win3_5.index t3_0 (1 : Fin 2) * 10 ≤ (i 1).val ∧ (i 1).val < win3_5.index t3_0 (1 : Fin 2) * 10 + 10; omega

/-- THE RESULT ARRAY after the region: the specification's head of the five arrays the region is entered with. -/
theorem head_table (c : Dev nD) :
    (dat3 V c).arrAt 5 cfg3.N = GraphNet.head (V c (Pipeline.arrRef spec3 0)) (V c (Pipeline.arrRef spec3 1))
      (V c (Pipeline.arrRef spec3 2)) (V c (Pipeline.arrRef spec3 3)) (V c (Pipeline.arrRef spec3 4)) :=
  (dat3 V c).arrAt_eq_of_cover 5 (headOf V c) (fun t _ => flushed_eq V c t) (fun i => cover i)

end Cert.GraphNet.HeadKernel

end
-- ==== Proof.RefLayer1.lean ====
/-
  The reference's first graph-convolution layer is the specification's layer.

  The reference computes, on the whole node table, (agg · w_rel + b_rel + h · w_root) · scale, with the two matrix
  products as contractions over the 128 features, the bias broadcast along rows and the scale broadcast along
  columns; here h is the input feature table.  Read at the entry (p, q) this is the specification's formula: the left operand of
  each product is read at (p, k), the right at (k, q), the bias at q and the scale at (p, 0).
-/
import proofs.«181113_j39917426049438_1_alg».proof.Proof.RefReadPatched
import proofs.«181113_j39917426049438_1_alg».proof.Proof.Spec

noncomputable section

open scoped BigOperators

namespace Cert.GraphNet.Ref

open Cert.ReferenceIdeal Cert.ReferenceIdeal.Gen Cert.ReferenceIdeal.ReadP Idealize.ShloMosaic Idealize.ShloMosaic.ValueIdx

/-- The left operand of the neighbourhood product is read at row `p`, contraction position `k`. -/
theorem lidx37 (p : Fin 40000) (q k : Fin 128) : lidx_main_v37 (ix2 p q) k = ix2 p k :=
  funext fun a => Fin.ext (by match a with | ⟨0, _⟩ => rfl | ⟨1, _⟩ => rfl)

/-- Its right operand is read at contraction position `k`, column `q`. -/
theorem ridx37 (p : Fin 40000) (q k : Fin 128) : ridx_main_v37 (ix2 p q) k = ix2 k q :=
  funext fun a => Fin.ext (by match a with | ⟨0, _⟩ => rfl | ⟨1, _⟩ => rfl)

/-- The left operand of the root product is read at row `p`, contraction position `k`. -/
theorem lidx41 (p : Fin 40000) (q k : Fin 128) : lidx_main_v41 (ix2 p q) k = ix2 p k :=
  funext fun a => Fin.ext (by match a with | ⟨0, _⟩ => rfl | ⟨1, _⟩ => rfl)

/-- Its right operand is read at contraction position `k`, column `q`. -/
theorem ridx41 (p : Fin 40000) (q k : Fin 128) : ridx_main_v41 (ix2 p q) k = ix2 k q :=
  funext fun a => Fin.ext (by match a with | ⟨0, _⟩ => rfl | ⟨1, _⟩ => rfl)

/-- The bias, broadcast first to one row and then to every row, is read at the column `q`. -/
theorem idx38_39 (p : Fin 40000) (q : Fin 128) : idx_main_v38 (idx_main_v39 (ix2 p q)) = ix1 q :=
  funext fun a => Fin.ext (by match a with | ⟨0, _⟩ => rfl)

/-- The scale column, broadcast to every column, is read at the row `p`. -/
theorem idx43 (p : Fin 40000) (q : Fin 128) : idx_main_v43 (ix2 p q) = ix2 p (0 : Fin 1) :=
  funext fun a => Fin.ext (by match a with | ⟨0, _⟩ => rfl | ⟨1, _⟩ => rfl)

/-- The first layer of the reference, as a table, is the specification's layer of the neighbourhood sums, the layer's
    input features, the scale column and the layer's slices of the three weight arrays. -/
theorem ref_layer1 (x0 : (⟨S40000x128, .f32⟩ : BufTy).Contents (Elt Ideal))
    (x1 : (⟨S2x640000, .i32⟩ : BufTy).Contents (Elt Ideal)) (x2 : (⟨S40000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) :
    val_main_v44 (F := Ideal) x0 x1 x2 x3 x4 x5 =
      GraphNet.layer (n := 40000) (val_main_v36 (F := Ideal) x0 x1) (x0) (val_main_v20 (F := Ideal) x2)
        (val_main_v22 (F := Ideal) x3) (val_main_v24 (F := Ideal) x4) (val_main_v26 (F := Ideal) x5) := by
  funext i
  obtain ⟨p, q, rfl⟩ : ∃ (p : Fin 40000) (q : Fin 128), i = ix2 p q := ⟨i 0, i 1, eq_ix2 i⟩
  rw [layer_ix2, val_main_v44_apply, val_main_v42_apply, val_main_v40_apply, val_main_v37_apply,
    val_main_v39_apply, val_main_v38_apply, val_main_v41_apply, val_main_v43_apply, idx38_39, idx43]
  simp only [lidx37, ridx37, lidx41, ridx41]
  unfold layerAt
  simp only [Ideal.mulf_def, Ideal.addf_def] <;> rfl

end Cert.GraphNet.Ref

end
-- ==== Proof.RefLayer2.lean ====
/-
  The reference's second graph-convolution layer is the specification's layer.

  The reference computes, on the whole node table, (agg · w_rel + b_rel + h · w_root) · scale, with the two matrix
  products as contractions over the 128 features, the bias broadcast along rows and the scale broadcast along
  columns; here h is the first layer's output.  Read at the entry (p, q) this is the specification's formula: the left operand of
  each product is read at (p, k), the right at (k, q), the bias at q and the scale at (p, 0).
-/
import proofs.«181113_j39917426049438_1_alg».proof.Proof.RefReadPatched
import proofs.«181113_j39917426049438_1_alg».proof.Proof.Spec

noncomputable section

open scoped BigOperators

namespace Cert.GraphNet.Ref

open Cert.ReferenceIdeal Cert.ReferenceIdeal.Gen Cert.ReferenceIdeal.ReadP Idealize.ShloMosaic Idealize.ShloMosaic.ValueIdx

/-- The left operand of the neighbourhood product is read at row `p`, contraction position `k`. -/
theorem lidx61 (p : Fin 40000) (q k : Fin 128) : lidx_main_v61 (ix2 p q) k = ix2 p k :=
  funext fun a => Fin.ext (by match a with | ⟨0, _⟩ => rfl | ⟨1, _⟩ => rfl)

/-- Its right operand is read at contraction position `k`, column `q`. -/
theorem ridx61 (p : Fin 40000) (q k : Fin 128) : ridx_main_v61 (ix2 p q) k = ix2 k q :=
  funext fun a => Fin.ext (by match a with | ⟨0, _⟩ => rfl | ⟨1, _⟩ => rfl)

/-- The left operand of the root product is read at row `p`, contraction position `k`. -/
theorem lidx65 (p : Fin 40000) (q k : Fin 128) : lidx_main_v65 (ix2 p q) k = ix2 p k :=
  funext fun a => Fin.ext (by match a with | ⟨0, _⟩ => rfl | ⟨1, _⟩ => rfl)

/-- Its right operand is read at contraction position `k`, column `q`. -/
theorem ridx65 (p : Fin 40000) (q k : Fin 128) : ridx_main_v65 (ix2 p q) k = ix2 k q :=
  funext fun a => Fin.ext (by match a with | ⟨0, _⟩ => rfl | ⟨1, _⟩ => rfl)

/-- The bias, broadcast first to one row and then to every row, is read at the column `q`. -/
theorem idx62_63 (p : Fin 40000) (q : Fin 128) : idx_main_v62 (idx_main_v63 (ix2 p q)) = ix1 q :=
  funext fun a => Fin.ext (by match a with | ⟨0, _⟩ => rfl)

/-- The scale column, broadcast to every column, is read at the row `p`. -/
theorem idx67 (p : Fin 40000) (q : Fin 128) : idx_main_v67 (ix2 p q) = ix2 p (0 : Fin 1) :=
  funext fun a => Fin.ext (by match a with | ⟨0, _⟩ => rfl | ⟨1, _⟩ => rfl)

/-- The second layer of the reference, as a table, is the specification's layer of the neighbourhood sums, the layer's
    input features, the scale column and the layer's slices of the three weight arrays. -/
theorem ref_layer2 (x0 : (⟨S40000x128, .f32⟩ : BufTy).Contents (Elt Ideal))
    (x1 : (⟨S2x640000, .i32⟩ : BufTy).Contents (Elt Ideal)) (x2 : (⟨S40000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) :
    val_main_v68 (F := Ideal) x0 x1 x2 x3 x4 x5 =
      GraphNet.layer (n := 40000) (val_main_v60 (F := Ideal) x0 x1 x2 x3 x4 x5) (val_main_v44 (F := Ideal) x0 x1 x2 x3 x4 x5) (val_main_v20 (F := Ideal) x2)
        (val_main_v46 (F := Ideal) x3) (val_main_v48 (F := Ideal) x4) (val_main_v50 (F := Ideal) x5) := by
  funext i
  obtain ⟨p, q, rfl⟩ : ∃ (p : Fin 40000) (q : Fin 128), i = ix2 p q := ⟨i 0, i 1, eq_ix2 i⟩
  rw [layer_ix2, val_main_v68_apply, val_main_v66_apply, val_main_v64_apply, val_main_v61_apply,
    val_main_v63_apply, val_main_v62_apply, val_main_v65_apply, val_main_v67_apply, idx62_63, idx67]
  simp only [lidx61, ridx61, lidx65, ridx65]
  unfold layerAt
  simp only [Ideal.mulf_def, Ideal.addf_def] <;> rfl

end Cert.GraphNet.Ref

end
-- ==== Proof.RefLayer3.lean ====
/-
  The reference's third graph-convolution layer is the specification's layer.

  The reference computes, on the whole node table, (agg · w_rel + b_rel + h · w_root) · scale, with the two matrix
  products as contractions over the 128 features, the bias broadcast along rows and the scale broadcast along
  columns; here h is the second layer's output.  Read at the entry (p, q) this is the specification's formula: the left operand of
  each product is read at (p, k), the right at (k, q), the bias at q and the scale at (p, 0).
-/
import proofs.«181113_j39917426049438_1_alg».proof.Proof.RefReadPatched
import proofs.«181113_j39917426049438_1_alg».proof.Proof.Spec

noncomputable section

open scoped BigOperators

namespace Cert.GraphNet.Ref

open Cert.ReferenceIdeal Cert.ReferenceIdeal.Gen Cert.ReferenceIdeal.ReadP Idealize.ShloMosaic Idealize.ShloMosaic.ValueIdx

/-- The left operand of the neighbourhood product is read at row `p`, contraction position `k`. -/
theorem lidx85 (p : Fin 40000) (q k : Fin 128) : lidx_main_v85 (ix2 p q) k = ix2 p k :=
  funext fun a => Fin.ext (by match a with | ⟨0, _⟩ => rfl | ⟨1, _⟩ => rfl)

/-- Its right operand is read at contraction position `k`, column `q`. -/
theorem ridx85 (p : Fin 40000) (q k : Fin 128) : ridx_main_v85 (ix2 p q) k = ix2 k q :=
  funext fun a => Fin.ext (by match a with | ⟨0, _⟩ => rfl | ⟨1, _⟩ => rfl)

/-- The left operand of the root product is read at row `p`, contraction position `k`. -/
theorem lidx89 (p : Fin 40000) (q k : Fin 128) : lidx_main_v89 (ix2 p q) k = ix2 p k :=
  funext fun a => Fin.ext (by match a with | ⟨0, _⟩ => rfl | ⟨1, _⟩ => rfl)

/-- Its right operand is read at contraction position `k`, column `q`. -/
theorem ridx89 (p : Fin 40000) (q k : Fin 128) : ridx_main_v89 (ix2 p q) k = ix2 k q :=
  funext fun a => Fin.ext (by match a with | ⟨0, _⟩ => rfl | ⟨1, _⟩ => rfl)

/-- The bias, broadcast first to one row and then to every row, is read at the column `q`. -/
theorem idx86_87 (p : Fin 40000) (q : Fin 128) : idx_main_v86 (idx_main_v87 (ix2 p q)) = ix1 q :=
  funext fun a => Fin.ext (by match a with | ⟨0, _⟩ => rfl)

/-- The scale column, broadcast to every column, is read at the row `p`. -/
theorem idx91 (p : Fin 40000) (q : Fin 128) : idx_main_v91 (ix2 p q) = ix2 p (0 : Fin 1) :=
  funext fun a => Fin.ext (by match a with | ⟨0, _⟩ => rfl | ⟨1, _⟩ => rfl)

/-- The third layer of the reference, as a table, is the specification's layer of the neighbourhood sums, the layer's
    input features, the scale column and the layer's slices of the three weight arrays. -/
theorem ref_layer3 (x0 : (⟨S40000x128, .f32⟩ : BufTy).Contents (Elt Ideal))
    (x1 : (⟨S2x640000, .i32⟩ : BufTy).Contents (Elt Ideal)) (x2 : (⟨S40000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) :
    val_main_v92 (F := Ideal) x0 x1 x2 x3 x4 x5 =
      GraphNet.layer (n := 40000) (val_main_v84 (F := Ideal) x0 x1 x2 x3 x4 x5) (val_main_v68 (F := Ideal) x0 x1 x2 x3 x4 x5) (val_main_v20 (F := Ideal) x2)
        (val_main_v70 (F := Ideal) x3) (val_main_v72 (F := Ideal) x4) (val_main_v74 (F := Ideal) x5) := by
  funext i
  obtain ⟨p, q, rfl⟩ : ∃ (p : Fin 40000) (q : Fin 128), i = ix2 p q := ⟨i 0, i 1, eq_ix2 i⟩
  rw [layer_ix2, val_main_v92_apply, val_main_v90_apply, val_main_v88_apply, val_main_v85_apply,
    val_main_v87_apply, val_main_v86_apply, val_main_v89_apply, val_main_v91_apply, idx86_87, idx91]
  simp only [lidx85, ridx85, lidx89, ridx89]
  unfold layerAt
  simp only [Ideal.mulf_def, Ideal.addf_def] <;> rfl

end Cert.GraphNet.Ref

end
-- ==== Proof.RefHead.lean ====
/-
  The reference's read-out head is the specification's head.

  From the pooled graph features the reference computes a hidden layer max(pooled · w1 + b1, 0), the logits
  hidden · w2 + b2, and the log-softmax of each row of logits: the row's maximum m (a fold of max from −∞ over the ten
  classes, joined once more with −∞), the shifted logits l − m, and (l − m) − log Σ exp(l − m), the sum taken from the
  initial value +0, which adds nothing.  Each stage is read at an entry and identified with the specification's
  function of the same name.
-/
import proofs.«181113_j39917426049438_1_alg».proof.Proof.RefReadPatched
import proofs.«181113_j39917426049438_1_alg».proof.Proof.Spec

noncomputable section

open scoped BigOperators

namespace Cert.GraphNet.Ref

open Cert.ReferenceIdeal Cert.ReferenceIdeal.Gen Cert.ReferenceIdeal.ReadP Idealize.ShloMosaic Idealize.ShloMosaic.ValueIdx

/-- The left operand of the first product is read at row `r`, contraction position `k`. -/
theorem lidx99 (r : Fin 256) (j k : Fin 128) : lidx_main_v99 (ix2 r j) k = ix2 r k :=
  funext fun a => Fin.ext (by match a with | ⟨0, _⟩ => rfl | ⟨1, _⟩ => rfl)

/-- Its right operand is read at contraction position `k`, column `j`. -/
theorem ridx99 (r : Fin 256) (j k : Fin 128) : ridx_main_v99 (ix2 r j) k = ix2 k j :=
  funext fun a => Fin.ext (by match a with | ⟨0, _⟩ => rfl | ⟨1, _⟩ => rfl)

/-- The first bias, broadcast to one row and then to every row, is read at the column `j`. -/
theorem idx100_101 (r : Fin 256) (j : Fin 128) : idx_main_v100 (idx_main_v101 (ix2 r j)) = ix1 j :=
  funext fun a => Fin.ext (by match a with | ⟨0, _⟩ => rfl)

/-- The left operand of the second product is read at row `r`, contraction position `k`. -/
theorem lidx104 (r : Fin 256) (q : Fin 10) (k : Fin 128) : lidx_main_v104 (ix2 r q) k = ix2 r k :=
  funext fun a => Fin.ext (by match a with | ⟨0, _⟩ => rfl | ⟨1, _⟩ => rfl)

/-- Its right operand is read at contraction position `k`, column `q`. -/
theorem ridx104 (r : Fin 256) (q : Fin 10) (k : Fin 128) : ridx_main_v104 (ix2 r q) k = ix2 k q :=
  funext fun a => Fin.ext (by match a with | ⟨0, _⟩ => rfl | ⟨1, _⟩ => rfl)

/-- The second bias, broadcast to one row and then to every row, is read at the column `q`. -/
theorem idx105_106 (r : Fin 256) (q : Fin 10) : idx_main_v105 (idx_main_v106 (ix2 r q)) = ix1 q :=
  funext fun a => Fin.ext (by match a with | ⟨0, _⟩ => rfl)

/-- A per-row quantity, made a column and broadcast along the classes, is read at the row `r` (the row maximum). -/
theorem idx3_4 (r : Fin 256) (q : Fin 10) : idx_main_call2_v3 (idx_main_call2_v4 (ix2 r q)) = ix1 r :=
  funext fun a => Fin.ext (by match a with | ⟨0, _⟩ => rfl)

/-- The same for the logarithm of the row's sum of exponentials. -/
theorem idx8_10 (r : Fin 256) (q : Fin 10) : idx_main_call2_v8 (idx_main_call2_v10 (ix2 r q)) = ix1 r :=
  funext fun a => Fin.ext (by match a with | ⟨0, _⟩ => rfl)

/-- The row sum reads the exponentials at (r, k), k over the ten classes. -/
theorem idx7 (r : Fin 256) (k : Fin 10) : idx_main_call2_v7 (ix1 r) k = ix2 r k :=
  funext fun a => Fin.ext (by match a with | ⟨0, _⟩ => rfl | ⟨1, _⟩ => rfl)

/-- The hidden activation: max(Σ_k pooled(r,k)·w1(k,j) + b1(j), 0). -/
theorem hid_eq (x0 : (⟨S40000x128, .f32⟩ : BufTy).Contents (Elt Ideal))
    (x1 : (⟨S2x640000, .i32⟩ : BufTy).Contents (Elt Ideal)) (x2 : (⟨S40000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S128x128, .f32⟩ : BufTy).Contents (Elt Ideal))
    (x7 : (⟨S128, .f32⟩ : BufTy).Contents (Elt Ideal)) (r : Fin 256) (j : Fin 128) :
    val_main_v103 (F := Ideal) x0 x1 x2 x3 x4 x5 x6 x7 (ix2 r j) = hidAt (val_main_v98 (F := Ideal) x0 x1 x2 x3 x4 x5) x6 x7 r j := by
  rw [val_main_v103_apply, val_main_v102_apply, val_main_v99_apply, val_main_v101_apply, val_main_v100_apply,
    val_main_call1_v0_apply, val_main_call1_cst_apply, idx100_101]
  simp only [lidx99, ridx99]
  unfold hidAt
  simp only [Ideal.maximumf_def, Ideal.addf_def, Ideal.ofBits_def] <;> rfl

/-- The logit: Σ_j hidden(r,j)·w2(j,q) + b2(q). -/
theorem logit_eq (x0 : (⟨S40000x128, .f32⟩ : BufTy).Contents (Elt Ideal))
    (x1 : (⟨S2x640000, .i32⟩ : BufTy).Contents (Elt Ideal)) (x2 : (⟨S40000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S128x128, .f32⟩ : BufTy).Contents (Elt Ideal))
    (x7 : (⟨S128, .f32⟩ : BufTy).Contents (Elt Ideal)) (x8 : (⟨S128x10, .f32⟩ : BufTy).Contents (Elt Ideal))
    (x9 : (⟨S10, .f32⟩ : BufTy).Contents (Elt Ideal)) (r : Fin 256) (q : Fin 10) :
    val_main_v107 (F := Ideal) x0 x1 x2 x3 x4 x5 x6 x7 x8 x9 (ix2 r q) = logitAt (val_main_v98 (F := Ideal) x0 x1 x2 x3 x4 x5) x6 x7 x8 x9 r q := by
  rw [val_main_v107_apply, val_main_v104_apply, val_main_v106_apply, val_main_v105_apply, idx105_106]
  simp only [lidx104, ridx104, hid_eq]
  unfold logitAt
  simp only [Ideal.addf_def] <;> rfl

/-- A row index with the class `k` inserted on the reduced axis is (r, k). -/
theorem lift_row (h : S256x10.Reduces [1] S256) (r : Fin 256) (k : Fin (S256x10.size 1)) :
    h.lift (ix1 r) k = ix2 r (⟨k.val, k.isLt⟩ : Fin 10) := by
  funext c; apply Fin.ext
  fin_cases c <;> rfl

/-- The reduction of a [256, 10] table over its classes with a maximum body, from −∞, is at row `r` the fold of max
    from −∞ over the row's ten entries. -/
theorem reduceMax_row (lg : (⟨S256x10, .f32⟩ : BufTy).Contents (Elt Ideal)) (r : Fin 256) :
    Host.reduce (FloatOps.maximumf (F := Ideal) (φ := .f32)) lg (val_main_call2_cst (F := Ideal)) reducesTo_S256x10_S256_d1 h_S_ (ix1 r)
      = (Finset.univ : Finset (Fin 10)).fold max negInf (fun q => lg (ix2 r q)) := by
  have h : S256x10.Reduces [1] S256 := by decide
  rw [Host.reduce_eq_fold_single (FloatOps.maximumf (F := Ideal) (φ := .f32)) lg _ reducesTo_S256x10_S256_d1 h h_S_]
  have hf : (lg ∘ h.lift (ix1 r)) = fun k : Fin 10 => lg (ix2 r k) := funext fun k => congrArg lg (lift_row h r k)
  exact congrArg (fun f => Finset.fold max negInf f (Finset.univ : Finset (Fin 10))) hf

/-- The row maximum of the logits, joined with −∞. -/
theorem rowMax_eq (x0 : (⟨S40000x128, .f32⟩ : BufTy).Contents (Elt Ideal))
    (x1 : (⟨S2x640000, .i32⟩ : BufTy).Contents (Elt Ideal)) (x2 : (⟨S40000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S128x128, .f32⟩ : BufTy).Contents (Elt Ideal))
    (x7 : (⟨S128, .f32⟩ : BufTy).Contents (Elt Ideal)) (x8 : (⟨S128x10, .f32⟩ : BufTy).Contents (Elt Ideal))
    (x9 : (⟨S10, .f32⟩ : BufTy).Contents (Elt Ideal)) (r : Fin 256) :
    val_main_call2_v2 (F := Ideal) x0 x1 x2 x3 x4 x5 x6 x7 x8 x9 (ix1 r) = rowMax (logitAt (val_main_v98 (F := Ideal) x0 x1 x2 x3 x4 x5) x6 x7 x8 x9) r := by
  rw [val_main_call2_v2_apply, val_main_call2_v1_apply, val_main_call2_cst_0_apply]
  unfold val_main_call2_v0
  rw [reduceMax_row]
  simp only [logit_eq]
  unfold rowMax
  simp only [Ideal.maximumf_def, Ideal.ofBits_def] <;> rfl

/-- The shifted logit l(r,q) − m(r). -/
theorem shift_eq (x0 : (⟨S40000x128, .f32⟩ : BufTy).Contents (Elt Ideal))
    (x1 : (⟨S2x640000, .i32⟩ : BufTy).Contents (Elt Ideal)) (x2 : (⟨S40000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S128x128, .f32⟩ : BufTy).Contents (Elt Ideal))
    (x7 : (⟨S128, .f32⟩ : BufTy).Contents (Elt Ideal)) (x8 : (⟨S128x10, .f32⟩ : BufTy).Contents (Elt Ideal))
    (x9 : (⟨S10, .f32⟩ : BufTy).Contents (Elt Ideal)) (r : Fin 256) (q : Fin 10) :
    val_main_call2_v5 (F := Ideal) x0 x1 x2 x3 x4 x5 x6 x7 x8 x9 (ix2 r q)
      = logitAt (val_main_v98 (F := Ideal) x0 x1 x2 x3 x4 x5) x6 x7 x8 x9 r q - rowMax (logitAt (val_main_v98 (F := Ideal) x0 x1 x2 x3 x4 x5) x6 x7 x8 x9) r := by
  rw [val_main_call2_v5_apply, val_main_call2_v4_apply, val_main_call2_v3_apply, idx3_4, rowMax_eq, logit_eq]
  simp only [Ideal.subf_def] <;> rfl

/-- The head of the reference, as a table, is the specification's head of the pooled features and the head's four
    weight arrays. -/
theorem ref_head (x0 : (⟨S40000x128, .f32⟩ : BufTy).Contents (Elt Ideal))
    (x1 : (⟨S2x640000, .i32⟩ : BufTy).Contents (Elt Ideal)) (x2 : (⟨S40000, .i32⟩ : BufTy).Contents (Elt Ideal))
    (x3 : (⟨S3x128x128, .f32⟩ : BufTy).Contents (Elt Ideal)) (x4 : (⟨S3x128, .f32⟩ : BufTy).Contents (Elt Ideal))
    (x5 : (⟨S3x128x128, .f32⟩ : BufTy).Contents (Elt Ideal)) (x6 : (⟨S128x128, .f32⟩ : BufTy).Contents (Elt Ideal))
    (x7 : (⟨S128, .f32⟩ : BufTy).Contents (Elt Ideal)) (x8 : (⟨S128x10, .f32⟩ : BufTy).Contents (Elt Ideal))
    (x9 : (⟨S10, .f32⟩ : BufTy).Contents (Elt Ideal)) :
    val_main_v108 (F := Ideal) x0 x1 x2 x3 x4 x5 x6 x7 x8 x9 = GraphNet.head (val_main_v98 (F := Ideal) x0 x1 x2 x3 x4 x5) x6 x7 x8 x9 := by
  funext i
  obtain ⟨r, q, rfl⟩ : ∃ (r : Fin 256) (q : Fin 10), i = ix2 r q := ⟨i 0, i 1, eq_ix2 i⟩
  rw [head_ix2, val_main_v108_apply, val_main_call2_v10_apply, val_main_call2_v9_apply, val_main_call2_v8_apply,
    val_main_call2_v7_apply, idx8_10, shift_eq]
  simp only [val_main_call2_v6_apply, idx7, shift_eq, val_main_call2_cst_1_apply]
  unfold headAt logSoftmaxAt
  simp only [Ideal.subf_def, Ideal.hostUnary_log_def, Ideal.hostUnary_exp_def, Ideal.ofBits_def, Ideal.ofBits_zero_f32, zero_add] <;> rfl

end Cert.GraphNet.Ref

end
-- ==== Proof.Glue.lean ====
/-
  The buffer contents at every boundary of the idealized kernel's run, written with the reference's own stage functions.

  Both programs were lowered from the same jax code around the dense steps, so outside the four launches the kernel's
  host operations are, operation for operation, the reference's: the edge endpoints, the per-graph node counts and
  their guarded reciprocals, the scale column gathered back to the nodes, the weight slices, each layer's gather of
  neighbour rows and scatter-add onto destination rows, and the final pooling.  Where the reference applies two matrix
  products, a bias and a scale, the kernel launches a tiled layer; where it applies the dense head, the kernel launches
  the head.  Boundary by boundary: the contents the kernel's run leaves in a buffer are the reference's stage function
  of the launch arguments — for a host stretch because the operations are the same terms, for a launch because its
  result table is the layer (or the head) of what it found, which is what the reference's stages compute.
-/
import proofs.«181113_j39917426049438_1_alg».proof.Proof.GlueBase
import proofs.«181113_j39917426049438_1_alg».proof.Proof.LayerRegion0
import proofs.«181113_j39917426049438_1_alg».proof.Proof.LayerRegion1
import proofs.«181113_j39917426049438_1_alg».proof.Proof.LayerRegion2
import proofs.«181113_j39917426049438_1_alg».proof.Proof.HeadRegion
import proofs.«181113_j39917426049438_1_alg».proof.Proof.RefLayer1
import proofs.«181113_j39917426049438_1_alg».proof.Proof.RefLayer2
import proofs.«181113_j39917426049438_1_alg».proof.Proof.RefLayer3
import proofs.«181113_j39917426049438_1_alg».proof.Proof.RefHead
import Idealize.ShloMosaic.Lib.StableHlo.Run

set_option maxRecDepth 16384

noncomputable section

namespace Cert.GraphNet.Glue

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Layer 1 -/

set_option maxHeartbeats 2000000 in
/-- The first launch leaves the reference's first layer in its result table. -/
theorem layer1 : W4 m ρ c (Proc.devRef .tc main_v37) = val_main_v44 (F := Ideal) (a0 m c) (a1 m c) (a2 m c) (a3 m c) (a4 m c) (a5 m c) := by
  refine (W4_arr m ρ c 6).trans ((LayerKernel.layer_table0 (V3 m ρ) c).trans ?_)
  rw [Ref.ref_layer1]
  show GraphNet.layer (W3 m ρ c (Proc.devRef .tc main_v30)) (W3 m ρ c (Proc.devRef .tc main_arg0)) (W3 m ρ c (Proc.devRef .tc main_v20))
      (W3 m ρ c (Proc.devRef .tc main_v32)) (W3 m ρ c (Proc.devRef .tc main_v34)) (W3 m ρ c (Proc.devRef .tc main_v36)) = _
  rw [entry1_agg, entry1_feat, (kept3 m ρ c).scale, entry1_wrel, entry1_brel, entry1_wroot]

set_option maxHeartbeats 4000000 in
/-- A layer's launch writes its result table only: the scale column is one of its inputs and ends as it was found, and no
    other kept buffer is an array of the launch. -/
theorem kept4 (h : Kept m c (W3 m ρ c)) : Kept m c (W4 m ρ c) where
  src := (W4_of_ne m ρ c main_v1 (by decide)).trans h.src
  dst := (W4_of_ne m ρ c main_v3 (by decide)).trans h.dst
  inv := (W4_of_ne m ρ c main_v12 (by decide)).trans h.inv
  scale := ((W4_arr m ρ c 2).trans (((dat0 (V3 m ρ) c).arrAt_in 2 rfl _).trans (A_eq0 (V3 m ρ) c 2))).trans h.scale
  g2 := (W4_of_ne m ρ c main_arg2 (by decide)).trans h.g2
  g3 := (W4_of_ne m ρ c main_arg3 (by decide)).trans h.g3
  g4 := (W4_of_ne m ρ c main_arg4 (by decide)).trans h.g4
  g5 := (W4_of_ne m ρ c main_arg5 (by decide)).trans h.g5
  g6 := (W4_of_ne m ρ c main_arg6 (by decide)).trans h.g6
  g7 := (W4_of_ne m ρ c main_arg7 (by decide)).trans h.g7
  g8 := (W4_of_ne m ρ c main_arg8 (by decide)).trans h.g8
  g9 := (W4_of_ne m ρ c main_arg9 (by decide)).trans h.g9

set_option maxHeartbeats 4000000 in
/-- The stretch of host operations before the next launch writes none of the kept buffers. -/
theorem kept5 (h : Kept m c (W4 m ρ c)) : Kept m c (W5 m ρ c) where
  src := (show StableHlo.after hostOps1 (W4 m ρ c) (Proc.devRef .tc main_v1) = W4 m ρ c (Proc.devRef .tc main_v1) by after_results_simp).trans h.src
  dst := (show StableHlo.after hostOps1 (W4 m ρ c) (Proc.devRef .tc main_v3) = W4 m ρ c (Proc.devRef .tc main_v3) by after_results_simp).trans h.dst
  inv := (show StableHlo.after hostOps1 (W4 m ρ c) (Proc.devRef .tc main_v12) = W4 m ρ c (Proc.devRef .tc main_v12) by after_results_simp).trans h.inv
  scale := (show StableHlo.after hostOps1 (W4 m ρ c) (Proc.devRef .tc main_v20) = W4 m ρ c (Proc.devRef .tc main_v20) by after_results_simp).trans h.scale
  g2 := (show StableHlo.after hostOps1 (W4 m ρ c) (Proc.devRef .tc main_arg2) = W4 m ρ c (Proc.devRef .tc main_arg2) by after_results_simp).trans h.g2
  g3 := (show StableHlo.after hostOps1 (W4 m ρ c) (Proc.devRef .tc main_arg3) = W4 m ρ c (Proc.devRef .tc main_arg3) by after_results_simp).trans h.g3
  g4 := (show StableHlo.after hostOps1 (W4 m ρ c) (Proc.devRef .tc main_arg4) = W4 m ρ c (Proc.devRef .tc main_arg4) by after_results_simp).trans h.g4
  g5 := (show StableHlo.after hostOps1 (W4 m ρ c) (Proc.devRef .tc main_arg5) = W4 m ρ c (Proc.devRef .tc main_arg5) by after_results_simp).trans h.g5
  g6 := (show StableHlo.after hostOps1 (W4 m ρ c) (Proc.devRef .tc main_arg6) = W4 m ρ c (Proc.devRef .tc main_arg6) by after_results_simp).trans h.g6
  g7 := (show StableHlo.after hostOps1 (W4 m ρ c) (Proc.devRef .tc main_arg7) = W4 m ρ c (Proc.devRef .tc main_arg7) by after_results_simp).trans h.g7
  g8 := (show StableHlo.after hostOps1 (W4 m ρ c) (Proc.devRef .tc main_arg8) = W4 m ρ c (Proc.devRef .tc main_arg8) by after_results_simp).trans h.g8
  g9 := (show StableHlo.after hostOps1 (W4 m ρ c) (Proc.devRef .tc main_arg9) = W4 m ρ c (Proc.devRef .tc main_arg9) by after_results_simp).trans h.g9

/-! ## Layer 2 -/

set_option maxHeartbeats 2000000 in
theorem entry2_feat : W5 m ρ c (Proc.devRef .tc main_v37) = val_main_v44 (F := Ideal) (a0 m c) (a1 m c) (a2 m c) (a3 m c) (a4 m c) (a5 m c) :=
  (show StableHlo.after hostOps1 (W4 m ρ c) (Proc.devRef .tc main_v37) = W4 m ρ c (Proc.devRef .tc main_v37) by after_results_simp).trans (layer1 m ρ c)
set_option maxHeartbeats 2000000 in
set_option maxRecDepth 65536 in
theorem entry2_agg : W5 m ρ c (Proc.devRef .tc main_v47) = val_main_v60 (F := Ideal) (a0 m c) (a1 m c) (a2 m c) (a3 m c) (a4 m c) (a5 m c) := by
  show StableHlo.after hostOps1 (W4 m ρ c) (Proc.devRef .tc main_v47) = _
  after_results_simp
  rw [layer1, (kept4 m ρ c (kept3 m ρ c)).src, (kept4 m ρ c (kept3 m ρ c)).dst]
  exact rfl
set_option maxHeartbeats 2000000 in
set_option maxRecDepth 65536 in
theorem entry2_wrel : W5 m ρ c (Proc.devRef .tc main_v49) = val_main_v46 (F := Ideal) (a3 m c) := by
  show StableHlo.after hostOps1 (W4 m ρ c) (Proc.devRef .tc main_v49) = _
  after_results_simp
  rw [(kept4 m ρ c (kept3 m ρ c)).g3]
  exact rfl
set_option maxHeartbeats 2000000 in
set_option maxRecDepth 65536 in
theorem entry2_brel : W5 m ρ c (Proc.devRef .tc main_v51) = val_main_v48 (F := Ideal) (a4 m c) := by
  show StableHlo.after hostOps1 (W4 m ρ c) (Proc.devRef .tc main_v51) = _
  after_results_simp
  rw [(kept4 m ρ c (kept3 m ρ c)).g4]
  exact rfl
set_option maxHeartbeats 2000000 in
set_option maxRecDepth 65536 in
theorem entry2_wroot : W5 m ρ c (Proc.devRef .tc main_v53) = val_main_v50 (F := Ideal) (a5 m c) := by
  show StableHlo.after hostOps1 (W4 m ρ c) (Proc.devRef .tc main_v53) = _
  after_results_simp
  rw [(kept4 m ρ c (kept3 m ρ c)).g5]
  exact rfl

set_option maxHeartbeats 2000000 in
theorem layer2 : W6 m ρ c (Proc.devRef .tc main_v54) = val_main_v68 (F := Ideal) (a0 m c) (a1 m c) (a2 m c) (a3 m c) (a4 m c) (a5 m c) := by
  refine (W6_arr m ρ c 6).trans ((LayerKernel.layer_table1 (V5 m ρ) c).trans ?_)
  rw [Ref.ref_layer2]
  show GraphNet.layer (W5 m ρ c (Proc.devRef .tc main_v47)) (W5 m ρ c (Proc.devRef .tc main_v37)) (W5 m ρ c (Proc.devRef .tc main_v20))
      (W5 m ρ c (Proc.devRef .tc main_v49)) (W5 m ρ c (Proc.devRef .tc main_v51)) (W5 m ρ c (Proc.devRef .tc main_v53)) = _
  rw [entry2_agg, entry2_feat, (kept5 m ρ c (kept4 m ρ c (kept3 m ρ c))).scale, entry2_wrel, entry2_brel, entry2_wroot]

set_option maxHeartbeats 4000000 in
/-- A layer's launch writes its result table only: the scale column is one of its inputs and ends as it was found, and no
    other kept buffer is an array of the launch. -/
theorem kept6 (h : Kept m c (W5 m ρ c)) : Kept m c (W6 m ρ c) where
  src := (W6_of_ne m ρ c main_v1 (by decide)).trans h.src
  dst := (W6_of_ne m ρ c main_v3 (by decide)).trans h.dst
  inv := (W6_of_ne m ρ c main_v12 (by decide)).trans h.inv
  scale := ((W6_arr m ρ c 2).trans (((dat1 (V5 m ρ) c).arrAt_in 2 rfl _).trans (A_eq1 (V5 m ρ) c 2))).trans h.scale
  g2 := (W6_of_ne m ρ c main_arg2 (by decide)).trans h.g2
  g3 := (W6_of_ne m ρ c main_arg3 (by decide)).trans h.g3
  g4 := (W6_of_ne m ρ c main_arg4 (by decide)).trans h.g4
  g5 := (W6_of_ne m ρ c main_arg5 (by decide)).trans h.g5
  g6 := (W6_of_ne m ρ c main_arg6 (by decide)).trans h.g6
  g7 := (W6_of_ne m ρ c main_arg7 (by decide)).trans h.g7
  g8 := (W6_of_ne m ρ c main_arg8 (by decide)).trans h.g8
  g9 := (W6_of_ne m ρ c main_arg9 (by decide)).trans h.g9

set_option maxHeartbeats 4000000 in
/-- The stretch of host operations before the next launch writes none of the kept buffers. -/
theorem kept7 (h : Kept m c (W6 m ρ c)) : Kept m c (W7 m ρ c) where
  src := (show StableHlo.after hostOps2 (W6 m ρ c) (Proc.devRef .tc main_v1) = W6 m ρ c (Proc.devRef .tc main_v1) by after_results_simp).trans h.src
  dst := (show StableHlo.after hostOps2 (W6 m ρ c) (Proc.devRef .tc main_v3) = W6 m ρ c (Proc.devRef .tc main_v3) by after_results_simp).trans h.dst
  inv := (show StableHlo.after hostOps2 (W6 m ρ c) (Proc.devRef .tc main_v12) = W6 m ρ c (Proc.devRef .tc main_v12) by after_results_simp).trans h.inv
  scale := (show StableHlo.after hostOps2 (W6 m ρ c) (Proc.devRef .tc main_v20) = W6 m ρ c (Proc.devRef .tc main_v20) by after_results_simp).trans h.scale
  g2 := (show StableHlo.after hostOps2 (W6 m ρ c) (Proc.devRef .tc main_arg2) = W6 m ρ c (Proc.devRef .tc main_arg2) by after_results_simp).trans h.g2
  g3 := (show StableHlo.after hostOps2 (W6 m ρ c) (Proc.devRef .tc main_arg3) = W6 m ρ c (Proc.devRef .tc main_arg3) by after_results_simp).trans h.g3
  g4 := (show StableHlo.after hostOps2 (W6 m ρ c) (Proc.devRef .tc main_arg4) = W6 m ρ c (Proc.devRef .tc main_arg4) by after_results_simp).trans h.g4
  g5 := (show StableHlo.after hostOps2 (W6 m ρ c) (Proc.devRef .tc main_arg5) = W6 m ρ c (Proc.devRef .tc main_arg5) by after_results_simp).trans h.g5
  g6 := (show StableHlo.after hostOps2 (W6 m ρ c) (Proc.devRef .tc main_arg6) = W6 m ρ c (Proc.devRef .tc main_arg6) by after_results_simp).trans h.g6
  g7 := (show StableHlo.after hostOps2 (W6 m ρ c) (Proc.devRef .tc main_arg7) = W6 m ρ c (Proc.devRef .tc main_arg7) by after_results_simp).trans h.g7
  g8 := (show StableHlo.after hostOps2 (W6 m ρ c) (Proc.devRef .tc main_arg8) = W6 m ρ c (Proc.devRef .tc main_arg8) by after_results_simp).trans h.g8
  g9 := (show StableHlo.after hostOps2 (W6 m ρ c) (Proc.devRef .tc main_arg9) = W6 m ρ c (Proc.devRef .tc main_arg9) by after_results_simp).trans h.g9

/-! ## Layer 3 -/

theorem k6 : Kept m c (W6 m ρ c) := kept6 m ρ c (kept5 m ρ c (kept4 m ρ c (kept3 m ρ c)))
theorem k7 : Kept m c (W7 m ρ c) := kept7 m ρ c (k6 m ρ c)

set_option maxHeartbeats 2000000 in
theorem entry3_feat : W7 m ρ c (Proc.devRef .tc main_v54) = val_main_v68 (F := Ideal) (a0 m c) (a1 m c) (a2 m c) (a3 m c) (a4 m c) (a5 m c) :=
  (show StableHlo.after hostOps2 (W6 m ρ c) (Proc.devRef .tc main_v54) = W6 m ρ c (Proc.devRef .tc main_v54) by after_results_simp).trans (layer2 m ρ c)
set_option maxHeartbeats 2000000 in
set_option maxRecDepth 65536 in
theorem entry3_agg : W7 m ρ c (Proc.devRef .tc main_v64) = val_main_v84 (F := Ideal) (a0 m c) (a1 m c) (a2 m c) (a3 m c) (a4 m c) (a5 m c) := by
  show StableHlo.after hostOps2 (W6 m ρ c) (Proc.devRef .tc main_v64) = _
  after_results_simp
  rw [layer2, (k6 m ρ c).src, (k6 m ρ c).dst]
  exact rfl
set_option maxHeartbeats 2000000 in
set_option maxRecDepth 65536 in
theorem entry3_wrel : W7 m ρ c (Proc.devRef .tc main_v66) = val_main_v70 (F := Ideal) (a3 m c) := by
  show StableHlo.after hostOps2 (W6 m ρ c) (Proc.devRef .tc main_v66) = _
  after_results_simp
  rw [(k6 m ρ c).g3]
  exact rfl
set_option maxHeartbeats 2000000 in
set_option maxRecDepth 65536 in
theorem entry3_brel : W7 m ρ c (Proc.devRef .tc main_v68) = val_main_v72 (F := Ideal) (a4 m c) := by
  show StableHlo.after hostOps2 (W6 m ρ c) (Proc.devRef .tc main_v68) = _
  after_results_simp
  rw [(k6 m ρ c).g4]
  exact rfl
set_option maxHeartbeats 2000000 in
set_option maxRecDepth 65536 in
theorem entry3_wroot : W7 m ρ c (Proc.devRef .tc main_v70) = val_main_v74 (F := Ideal) (a5 m c) := by
  show StableHlo.after hostOps2 (W6 m ρ c) (Proc.devRef .tc main_v70) = _
  after_results_simp
  rw [(k6 m ρ c).g5]
  exact rfl

set_option maxHeartbeats 2000000 in
theorem layer3 : W8 m ρ c (Proc.devRef .tc main_v71) = val_main_v92 (F := Ideal) (a0 m c) (a1 m c) (a2 m c) (a3 m c) (a4 m c) (a5 m c) := by
  refine (W8_arr m ρ c 6).trans ((LayerKernel.layer_table2 (V7 m ρ) c).trans ?_)
  rw [Ref.ref_layer3]
  show GraphNet.layer (W7 m ρ c (Proc.devRef .tc main_v64)) (W7 m ρ c (Proc.devRef .tc main_v54)) (W7 m ρ c (Proc.devRef .tc main_v20))
      (W7 m ρ c (Proc.devRef .tc main_v66)) (W7 m ρ c (Proc.devRef .tc main_v68)) (W7 m ρ c (Proc.devRef .tc main_v70)) = _
  rw [entry3_agg, entry3_feat, (k7 m ρ c).scale, entry3_wrel, entry3_brel, entry3_wroot]

set_option maxHeartbeats 4000000 in
/-- A layer's launch writes its result table only: the scale column is one of its inputs and ends as it was found, and no
    other kept buffer is an array of the launch. -/
theorem kept8 (h : Kept m c (W7 m ρ c)) : Kept m c (W8 m ρ c) where
  src := (W8_of_ne m ρ c main_v1 (by decide)).trans h.src
  dst := (W8_of_ne m ρ c main_v3 (by decide)).trans h.dst
  inv := (W8_of_ne m ρ c main_v12 (by decide)).trans h.inv
  scale := ((W8_arr m ρ c 2).trans (((dat2 (V7 m ρ) c).arrAt_in 2 rfl _).trans (A_eq2 (V7 m ρ) c 2))).trans h.scale
  g2 := (W8_of_ne m ρ c main_arg2 (by decide)).trans h.g2
  g3 := (W8_of_ne m ρ c main_arg3 (by decide)).trans h.g3
  g4 := (W8_of_ne m ρ c main_arg4 (by decide)).trans h.g4
  g5 := (W8_of_ne m ρ c main_arg5 (by decide)).trans h.g5
  g6 := (W8_of_ne m ρ c main_arg6 (by decide)).trans h.g6
  g7 := (W8_of_ne m ρ c main_arg7 (by decide)).trans h.g7
  g8 := (W8_of_ne m ρ c main_arg8 (by decide)).trans h.g8
  g9 := (W8_of_ne m ρ c main_arg9 (by decide)).trans h.g9

set_option maxHeartbeats 4000000 in
/-- The stretch of host operations before the next launch writes none of the kept buffers. -/
theorem kept9 (h : Kept m c (W8 m ρ c)) : Kept m c (W9 m ρ c) where
  src := (show StableHlo.after hostOps3 (W8 m ρ c) (Proc.devRef .tc main_v1) = W8 m ρ c (Proc.devRef .tc main_v1) by after_results_simp).trans h.src
  dst := (show StableHlo.after hostOps3 (W8 m ρ c) (Proc.devRef .tc main_v3) = W8 m ρ c (Proc.devRef .tc main_v3) by after_results_simp).trans h.dst
  inv := (show StableHlo.after hostOps3 (W8 m ρ c) (Proc.devRef .tc main_v12) = W8 m ρ c (Proc.devRef .tc main_v12) by after_results_simp).trans h.inv
  scale := (show StableHlo.after hostOps3 (W8 m ρ c) (Proc.devRef .tc main_v20) = W8 m ρ c (Proc.devRef .tc main_v20) by after_results_simp).trans h.scale
  g2 := (show StableHlo.after hostOps3 (W8 m ρ c) (Proc.devRef .tc main_arg2) = W8 m ρ c (Proc.devRef .tc main_arg2) by after_results_simp).trans h.g2
  g3 := (show StableHlo.after hostOps3 (W8 m ρ c) (Proc.devRef .tc main_arg3) = W8 m ρ c (Proc.devRef .tc main_arg3) by after_results_simp).trans h.g3
  g4 := (show StableHlo.after hostOps3 (W8 m ρ c) (Proc.devRef .tc main_arg4) = W8 m ρ c (Proc.devRef .tc main_arg4) by after_results_simp).trans h.g4
  g5 := (show StableHlo.after hostOps3 (W8 m ρ c) (Proc.devRef .tc main_arg5) = W8 m ρ c (Proc.devRef .tc main_arg5) by after_results_simp).trans h.g5
  g6 := (show StableHlo.after hostOps3 (W8 m ρ c) (Proc.devRef .tc main_arg6) = W8 m ρ c (Proc.devRef .tc main_arg6) by after_results_simp).trans h.g6
  g7 := (show StableHlo.after hostOps3 (W8 m ρ c) (Proc.devRef .tc main_arg7) = W8 m ρ c (Proc.devRef .tc main_arg7) by after_results_simp).trans h.g7
  g8 := (show StableHlo.after hostOps3 (W8 m ρ c) (Proc.devRef .tc main_arg8) = W8 m ρ c (Proc.devRef .tc main_arg8) by after_results_simp).trans h.g8
  g9 := (show StableHlo.after hostOps3 (W8 m ρ c) (Proc.devRef .tc main_arg9) = W8 m ρ c (Proc.devRef .tc main_arg9) by after_results_simp).trans h.g9

/-! ## Pooling and the head -/

theorem k8 : Kept m c (W8 m ρ c) := kept8 m ρ c (k7 m ρ c)
theorem k9 : Kept m c (W9 m ρ c) := kept9 m ρ c (k8 m ρ c)

set_option maxHeartbeats 2000000 in
set_option maxRecDepth 65536 in
/-- The pooled graph features the head is launched on are the reference's. -/
theorem entry4_pooled : W9 m ρ c (Proc.devRef .tc main_v77) = val_main_v98 (F := Ideal) (a0 m c) (a1 m c) (a2 m c) (a3 m c) (a4 m c) (a5 m c) := by
  show StableHlo.after hostOps3 (W8 m ρ c) (Proc.devRef .tc main_v77) = _
  after_results_simp
  rw [layer3, (k8 m ρ c).g2, (k8 m ρ c).inv]
  exact rfl

set_option maxHeartbeats 2000000 in
/-- The last launch leaves the reference's result in the result buffer. -/
theorem result : W10 m ρ c (Proc.devRef .tc main_v78)
    = val_main_v108 (F := Ideal) (a0 m c) (a1 m c) (a2 m c) (a3 m c) (a4 m c) (a5 m c) (a6 m c) (a7 m c) (a8 m c) (a9 m c) := by
  refine (W10_arr m ρ c 5).trans ((HeadKernel.head_table (V9 m ρ) c).trans ?_)
  rw [Ref.ref_head]
  show GraphNet.head (W9 m ρ c (Proc.devRef .tc main_v77)) (W9 m ρ c (Proc.devRef .tc main_arg6)) (W9 m ρ c (Proc.devRef .tc main_arg7))
      (W9 m ρ c (Proc.devRef .tc main_arg8)) (W9 m ρ c (Proc.devRef .tc main_arg9)) = _
  rw [entry4_pooled, (k9 m ρ c).g6, (k9 m ρ c).g7, (k9 m ρ c).g8, (k9 m ρ c).g9]

end Cert.GraphNet.Glue

end
-- ==== Proof.lean ====
/-
  A three-layer graph convolution network with mean pooling and a dense read-out, as a tiled accelerator program,
  against its plain array reference: the two compute the same function on extended reals.

  Each layer is  out = ((agg·w_rel + b_rel) + h·w_root) · scale,  where agg sums every node's neighbour rows (a gather along the
  edge sources followed by a scatter-add along the edge destinations) and scale is the reciprocal size of the node's graph
  (zero for an empty graph); the read-out pools node rows per graph, multiplies by the same reciprocals, and applies
  dense → max(·,0) → dense → log-softmax.  The accelerator program keeps the gathers, scatters and the pooling as host operations —
  the same operations the reference runs — and replaces each layer's dense part by a launch over 8 tiles of 5000 nodes and
  the read-out's dense part by a single launch.  On extended reals rounding the matrix-unit operands is the identity, a
  matrix product into a zero accumulator is the plain sum, and a tile of a layer's table only depends on that tile's rows of
  the node tables; so every launch leaves exactly the table the reference's corresponding stages compute, and the two
  results agree entry by entry, with the sums associated the same way on both sides: no law beyond reading both programs
  at an index is used, and the precondition (finite inputs) is not needed.

  The modules: Spec (the layer and the head as formulas), LayerPayload / LayerRegion0–2 and HeadPayload / HeadRegion (what a
  launch leaves, from its body's arithmetic and its tiling), RefLayer1–3 / RefHead (the reference's stages are those
  formulas), KernelRun (the accelerator program's run with its result named), GlueBase and Glue (boundary by boundary, the
  two programs' buffers agree), and the claims below.
-/
import proofs.«181113_j39917426049438_1_alg».proof.Defs
import proofs.«181113_j39917426049438_1_alg».proof.Proof.Gen.Kernel
import proofs.«181113_j39917426049438_1_alg».proof.Proof.Gen.Kernel.Skeleton
import proofs.«181113_j39917426049438_1_alg».proof.Proof.Gen.Kernel.Launch
import proofs.«181113_j39917426049438_1_alg».proof.Proof.Gen.Kernel.Points
import proofs.«181113_j39917426049438_1_alg».proof.Proof.Gen.Kernel.Frame
import proofs.«181113_j39917426049438_1_alg».proof.Proof.Gen.KernelIdeal
import proofs.«181113_j39917426049438_1_alg».proof.Proof.Gen.KernelIdeal.Skeleton
import proofs.«181113_j39917426049438_1_alg».proof.Proof.Gen.KernelIdeal.Launch
import proofs.«181113_j39917426049438_1_alg».proof.Proof.Gen.KernelIdeal.Points
import proofs.«181113_j39917426049438_1_alg».proof.Proof.Gen.KernelIdeal.Frame
import proofs.«181113_j39917426049438_1_alg».proof.Proof.Gen.ReferenceIdeal
import proofs.«181113_j39917426049438_1_alg».proof.Proof.RefRunPatched
import proofs.«181113_j39917426049438_1_alg».proof.Proof.RefReadPatched
import proofs.«181113_j39917426049438_1_alg».proof.Proof.Gen.Pre_finite_inputs
import proofs.«181113_j39917426049438_1_alg».proof.Proof.KernelRun
import proofs.«181113_j39917426049438_1_alg».proof.Proof.Glue
import Idealize.ShloMosaic.Adequacy
import Idealize.ShloMosaic.Init

noncomputable section

namespace Cert.Proof

open Idealize.ShloMosaic Idealize.SL.Sem Cert.Kernel

/-- The accelerator program as printed runs, terminates and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the reference's result function of the arguments
    in their result buffers. -/
theorem algebraic : Cert.algebraic_KernelIdeal_ReferenceIdeal := by
  intro m ρ m' ρ' _ hagree
  refine ⟨fun c => Cert.ReferenceIdeal.ReadP.val_main_v108 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.GraphNet.Glue.result m ρ c), (h c).2⟩)
      (Cert.GraphNet.KernelRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v108_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
